-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x800000 : Shape := ⟨2, ![2, 800000]⟩
abbrev S50000x512 : Shape := ⟨2, ![50000, 512]⟩
abbrev S800000 : Shape := ⟨1, ![800000]⟩
abbrev S512x128 : Shape := ⟨2, ![512, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S256x1 : Shape := ⟨2, ![256, 1]⟩
abbrev S1 : Shape := ⟨1, ![1]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S800000 : S_.BroadcastsInDim S800000 (![] : Fin 0 → Fin S800000.rank)
  reducesTo_S800000_S_d0 : S800000.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S128 .f32) (main_arg9 : FVec F S256x1 .f32) (main_arg10 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x1 .f32 := Host.absf main_arg9
  let main_cst_14 : FVec F S_ .f32 := constant S_ .f32 0x7F800000#32
  let main_v40 : FVec F S256x1 .f32 := broadcastInDim S256x1 ![] bcast_S_S256x1 main_cst_14
  let main_v41 : IVec S256x1 1 := cmpf .olt main_v39 main_v40
  let main_c_15 : IVec S_ 1 := constantI S_ 1 1#1
  let main_v42 : IVec S_ 1 := (fun x v => Host.reduce IntOp.andi x v reducesTo_S256x1_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg5 : FVec F S128x256 .f32) (main_arg6 : FVec F S256 .f32) (main_arg7 : FVec F S256x128 .f32) (main_arg8 : FVec F S128 .f32) (main_arg9 : FVec F S256x1 .f32) (main_arg10 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg8 main_arg9 main_arg10 main_v33

def fn {F : FTy → Type} [FloatOps F] (main_arg0 : IVec S2x800000 32) (main_arg1 : FVec F S50000x512 .f32) (main_arg2 : FVec F S800000 .f32) (main_arg3 : FVec F S512x128 .f32) (main_arg4 : FVec F S128 .f32) (main_arg5 : FVec F S128x256 .f32) (main_arg6 : FVec F S256 .f32) (main_arg7 : FVec F S256x128 .f32) (main_arg8 : FVec F S128 .f32) (main_arg9 : FVec F S256x1 .f32) (main_arg10 : FVec F S1 .f32) : IVec S_ 1 :=
  let main_v0 : FVec F S50000x512 .f32 := Host.absf main_arg1
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S512x128 .f32 := Host.absf main_arg3
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S2x800000 : Shape := ⟨2, ![2, 800000]⟩
abbrev S50000x512 : Shape := ⟨2, ![50000, 512]⟩
abbrev S800000 : Shape := ⟨1, ![800000]⟩
abbrev S512x128 : Shape := ⟨2, ![512, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S256x1 : Shape := ⟨2, ![256, 1]⟩
abbrev S1 : Shape := ⟨1, ![1]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S1x128 : Shape := ⟨2, ![1, 128]⟩
abbrev S50000x256 : Shape := ⟨2, ![50000, 256]⟩
abbrev S1000x512 : Shape := ⟨2, ![1000, 512]⟩
abbrev S1000x256 : Shape := ⟨2, ![1000, 256]⟩
abbrev S1000x128 : Shape := ⟨2, ![1000, 128]⟩
abbrev S850000x256 : Shape := ⟨2, ![850000, 256]⟩
abbrev S1x256 : Shape := ⟨2, ![1, 256]⟩
abbrev S50000x128 : Shape := ⟨2, ![50000, 128]⟩
abbrev S850000x128 : Shape := ⟨2, ![850000, 128]⟩
abbrev S800000x1 : Shape := ⟨2, ![800000, 1]⟩
abbrev S800000x128 : Shape := ⟨2, ![800000, 128]⟩
abbrev S128x1 : Shape := ⟨2, ![128, 1]⟩
abbrev S1x1 : Shape := ⟨2, ![1, 1]⟩
abbrev S8000x128 : Shape := ⟨2, ![8000, 128]⟩
abbrev S8000x1 : Shape := ⟨2, ![8000, 1]⟩

abbrev nBuf : Space → Nat
  | .hbm => 129
  | .vmem => 21
  | .smem => 0
  | _ => 0

abbrev hbmTy0_0 (i : Nat) : BufTy := match i % 128 with
  | 0 => ⟨S2x800000, .i32⟩
  | 1 => ⟨S50000x512, .f32⟩
  | 2 => ⟨S800000, .f32⟩
  | 3 => ⟨S512x128, .f32⟩
  | 4 => ⟨S128, .f32⟩
  | 5 => ⟨S128x256, .f32⟩
  | 6 => ⟨S256, .f32⟩
  | 7 => ⟨S256x128, .f32⟩
  | 8 => ⟨S128, .f32⟩
  | 9 => ⟨S256x1, .f32⟩
  | 10 => ⟨S1, .f32⟩
  | 11 => ⟨S1x800000, .i32⟩
  | 12 => ⟨S800000, .i32⟩
  | 13 => ⟨S1x800000, .i32⟩
  | 14 => ⟨S800000, .i32⟩
  | 15 => ⟨S50000, .i32⟩
  | 16 => ⟨S850000, .i32⟩
  | 17 => ⟨S850000, .i32⟩
  | 18 => ⟨S_, .f32⟩
  | 19 => ⟨S50000, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S_, .f32⟩
  | 26 => ⟨S50000, .f32⟩
  | 27 => ⟨S50000, .i1⟩
  | 28 => ⟨S_, .f32⟩
  | 29 => ⟨S_, .f32⟩
  | 30 => ⟨S50000, .f32⟩
  | 31 => ⟨S50000, .f32⟩
  | 32 => ⟨S_, .f32⟩
  | 33 => ⟨S50000, .f32⟩
  | 34 => ⟨S50000, .f32⟩
  | 35 => ⟨S_, .f32⟩
  | 36 => ⟨S50000, .f32⟩
  | 37 => ⟨S50000, .i1⟩
  | 38 => ⟨S_, .f32⟩
  | 39 => ⟨S_, .f32⟩
  | 40 => ⟨S50000, .f32⟩
  | 41 => ⟨S50000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000, .f32⟩
  | 61 => ⟨S850000, .f32⟩
  | 62 => ⟨S1x128, .f32⟩
  | 63 => ⟨S50000x256, .f32⟩
  | 64 => ⟨S_, .i32⟩
  | 65 => ⟨S850000, .i32⟩
  | 66 => ⟨S850000, .i1⟩
  | 67 => ⟨S_, .i32⟩
  | 68 => ⟨S850000, .i32⟩
  | 69 => ⟨S850000, .i32⟩
  | 70 => ⟨S850000, .i32⟩
  | 71 => ⟨S850000x1, .i32⟩
  | 72 => ⟨S850000x256, .f32⟩
  | 73 => ⟨S850000x1, .f32⟩
  | 74 => ⟨S850000x256, .f32⟩
  | 75 => ⟨S850000x256, .f32⟩
  | 76 => ⟨S_, .f32⟩
  | 77 => ⟨S50000x256, .f32⟩
  | 78 => ⟨S850000x1, .i32⟩
  | 79 => ⟨S50000x256, .f32⟩
  | 80 => ⟨S1x256, .f32⟩
  | 81 => ⟨S50000x256, .f32⟩
  | 82 => ⟨S50000x256, .f32⟩
  | 83 => ⟨S_, .f32⟩
  | 84 => ⟨S50000x256, .f32⟩
  | 85 => ⟨S50000x256, .f32⟩
  | 86 => ⟨S50000x128, .f32⟩
  | 87 => ⟨S_, .i32⟩
  | 88 => ⟨S850000, .i32⟩
  | 89 => ⟨S850000, .i1⟩
  | 90 => ⟨S_, .i32⟩
  | 91 => ⟨S850000, .i32⟩
  | 92 => ⟨S850000, .i32⟩
  | 93 => ⟨S850000, .i32⟩
  | 94 => ⟨S850000x1, .i32⟩
  | 95 => ⟨S850000x128, .f32⟩
  | 96 => ⟨S850000x1, .f32⟩
  | 97 => ⟨S850000x128, .f32⟩
  | 98 => ⟨S850000x128, .f32⟩
  | 99 => ⟨S_, .f32⟩
  | 100 => ⟨S50000x128, .f32⟩
  | 101 => ⟨S850000x1, .i32⟩
  | 102 => ⟨S50000x128, .f32⟩
  | 103 => ⟨S1x128, .f32⟩
  | 104 => ⟨S50000x128, .f32⟩
  | 105 => ⟨S50000x128, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000x128, .f32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S800000x128, .f32⟩
  | 124 => ⟨S128x1, .f32⟩
  | 125 => ⟨S128x1, .f32⟩
  | 126 => ⟨S1x1, .f32⟩
  | 127 => ⟨S800000x1, .f32⟩
  | _ => ⟨S2x800000, .i32⟩

abbrev hbmTy0_1 (i : Nat) : BufTy := match i % 128 with
  | 0 => ⟨S800000, .f32⟩
  | _ => ⟨S2x800000, .i32⟩

abbrev hbmTy (i : Nat) : BufTy := match i / 128 with
  | 0 => hbmTy0_0 i
  | 1 => hbmTy0_1 i
  | _ => ⟨S2x800000, .i32⟩

abbrev bufTy : (tb : Table) → Fin (tcTables nBuf tb) → BufTy
  | .hbm, ⟨i, _⟩ => hbmTy i
  | .local _ .vmem, ⟨0, _⟩ => ⟨S1000x512, .f32⟩
  | .local _ .vmem, ⟨1, _⟩ => ⟨S1000x512, .f32⟩
  | .local _ .vmem, ⟨2, _⟩ => ⟨S512x128, .f32⟩
  | .local _ .vmem, ⟨3, _⟩ => ⟨S1x128, .f32⟩
  | .local _ .vmem, ⟨4, _⟩ => ⟨S128x256, .f32⟩
  | .local _ .vmem, ⟨5, _⟩ => ⟨S1000x256, .f32⟩
  | .local _ .vmem, ⟨6, _⟩ => ⟨S1000x256, .f32⟩
  | .local _ .vmem, ⟨7, _⟩ => ⟨S1000x256, .f32⟩
  | .local _ .vmem, ⟨8, _⟩ => ⟨S1000x256, .f32⟩
  | .local _ .vmem, ⟨9, _⟩ => ⟨S256x128, .f32⟩
  | .local _ .vmem, ⟨10, _⟩ => ⟨S1000x128, .f32⟩
  | .local _ .vmem, ⟨11, _⟩ => ⟨S1000x128, .f32⟩
  | .local _ .vmem, ⟨12, _⟩ => ⟨S8000x128, .f32⟩
  | .local _ .vmem, ⟨13, _⟩ => ⟨S8000x128, .f32⟩
  | .local _ .vmem, ⟨14, _⟩ => ⟨S8000x128, .f32⟩
  | .local _ .vmem, ⟨15, _⟩ => ⟨S8000x128, .f32⟩
  | .local _ .vmem, ⟨16, _⟩ => ⟨S128x1, .f32⟩
  | .local _ .vmem, ⟨17, _⟩ => ⟨S128x1, .f32⟩
  | .local _ .vmem, ⟨18, _⟩ => ⟨S1x1, .f32⟩
  | .local _ .vmem, ⟨19, _⟩ => ⟨S8000x1, .f32⟩
  | .local _ .vmem, ⟨20, _⟩ => ⟨S8000x1, .f32⟩
  | _, _ => ⟨S2x800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_cst_5 : Ref sig .tc := ⟨.hbm, 38, rfl⟩
abbrev main_call1_v0 : Ref sig .tc := ⟨.hbm, 39, rfl⟩
abbrev main_call1_v1 : Ref sig .tc := ⟨.hbm, 40, rfl⟩
abbrev main_v19 : Ref sig .tc := ⟨.hbm, 41, rfl⟩
abbrev main_c : Ref sig .tc := ⟨.hbm, 42, rfl⟩
abbrev main_v20 : Ref sig .tc := ⟨.hbm, 43, rfl⟩
abbrev main_v21 : Ref sig .tc := ⟨.hbm, 44, rfl⟩
abbrev main_c_6 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_7 : Ref sig .tc := ⟨.hbm, 52, rfl⟩
abbrev main_v28 : Ref sig .tc := ⟨.hbm, 53, rfl⟩
abbrev main_v29 : Ref sig .tc := ⟨.hbm, 54, rfl⟩
abbrev main_c_8 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_9 : Ref sig .tc := ⟨.hbm, 64, rfl⟩
abbrev main_v38 : Ref sig .tc := ⟨.hbm, 65, rfl⟩
abbrev main_v39 : Ref sig .tc := ⟨.hbm, 66, rfl⟩
abbrev main_c_10 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_11 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_call2_cst : Ref sig .tc := ⟨.hbm, 83, rfl⟩
abbrev main_call2_v0 : Ref sig .tc := ⟨.hbm, 84, rfl⟩
abbrev main_v54 : Ref sig .tc := ⟨.hbm, 85, rfl⟩
abbrev main_v55 : Ref sig .tc := ⟨.hbm, 86, rfl⟩
abbrev main_c_12 : Ref sig .tc := ⟨.hbm, 87, rfl⟩
abbrev main_v56 : Ref sig .tc := ⟨.hbm, 88, rfl⟩
abbrev main_v57 : Ref sig .tc := ⟨.hbm, 89, rfl⟩
abbrev main_c_13 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_14 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_c_15 : Ref sig .tc := ⟨.hbm, 106, rfl⟩
abbrev main_v72 : Ref sig .tc := ⟨.hbm, 107, rfl⟩
abbrev main_v73 : Ref sig .tc := ⟨.hbm, 108, rfl⟩
abbrev main_c_16 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_c_17 : Ref sig .tc := ⟨.hbm, 115, rfl⟩
abbrev main_v79 : Ref sig .tc := ⟨.hbm, 116, rfl⟩
abbrev main_v80 : Ref sig .tc := ⟨.hbm, 117, rfl⟩
abbrev main_c_18 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S8000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  shapeCasts_S128_S1x128 : S128.ShapeCasts S1x128
  inb_S1000x512_S1000x512_0_0 : ∀ a, (![0, 0] : Fin 2 → Nat) a + S1000x512.size a ≤ S1000x512.size a
  h_S1000x512 : 0 < S1000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S128x256_S128x256_0_0 : ∀ a, (![0, 0] : Fin 2 → Nat) a + S128x256.size a ≤ S128x256.size a
  h_S128x256 : 0 < S128x256.numel
  inb_S1000x256_S1000x256_0_0 : ∀ a, (![0, 0] : Fin 2 → Nat) a + S1000x256.size a ≤ S1000x256.size a
  h_S1000x256 : 0 < S1000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S1000x256_S1000x256 : S1000x256.ShapeCasts S1000x256
  inb_S256x128_S256x128_0_0 : ∀ a, (![0, 0] : Fin 2 → Nat) a + S256x128.size a ≤ S256x128.size a
  h_S256x128 : 0 < S256x128.numel
  inb_S1000x128_S1000x128_0_0 : ∀ a, (![0, 0] : Fin 2 → Nat) a + S1000x128.size a ≤ S1000x128.size a
  h_S1000x128 : 0 < S1000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  slices_S256x1_S128x1_0_0 : S256x1.Slices ![0, 0] S128x1
  slices_S256x1_S128x1_128_0 : S256x1.Slices ![128, 0] S128x1
  shapeCasts_S1_S1x1 : S1.ShapeCasts S1x1
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  inb_S8000x1_S8000x1_0_0 : ∀ a, (![0, 0] : Fin 2 → Nat) a + S8000x1.size a ≤ S8000x1.size a
  h_S8000x1 : 0 < S8000x1.numel
  shapeCasts_S800000x1_S800000 : S800000x1.ShapeCasts S800000
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S1000x512_S512x128_S1000x128_1_0_0_1_n_n_wf : DotDims.WF S1000x512 S512x128 S1000x128 [1] [0] [0] [1] [] []
  dot_S1000x128_S128x256_S1000x256_1_0_0_1_n_n_wf : DotDims.WF S1000x128 S128x256 S1000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S1000x256_S256x128_S1000x128_1_0_0_1_n_n_wf : DotDims.WF S1000x256 S256x128 S1000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  gather_S50000x128_S800000x1_S800000x128_1_0_n_n_0_1_1128_wf : GatherDims.WF S50000x128 S800000x1 S800000x128 [1] [0] [] [0] [] 1 ![1, 128]
  dot_S8000x128_S128x1_S8000x1_1_0_0_1_n_n_wf : DotDims.WF S8000x128 S128x1 S8000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S50000x512.size a
  hwx0_0 : ∀ i : grid0.Coords, EltTy.bits .f32 = 32 ∨ (Rect.block (s := S50000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x256.size a ≤ S50000x256.size a
  hwx0_4 : ∀ i : grid0.Coords, EltTy.bits .f32 = 32 ∨ (Rect.block (s := S50000x256) S1000x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S50000x256.size a
  hwx1_0 : ∀ i : grid1.Coords, EltTy.bits .f32 = 32 ∨ (Rect.block (s := S50000x256) S1000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x128.size a ≤ S50000x128.size a
  hwx1_2 : ∀ i : grid1.Coords, EltTy.bits .f32 = 32 ∨ (Rect.block (s := S50000x128) S1000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S800000x128.size a
  hwx2_0 : ∀ i : grid2.Coords, EltTy.bits .f32 = 32 ∨ (Rect.block (s := S800000x128) S8000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x128.size a ≤ S800000x128.size a
  hwx2_1 : ∀ i : grid2.Coords, EltTy.bits .f32 = 32 ∨ (Rect.block (s := S800000x128) S8000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x1.size a ≤ S128x1.size a
  hwx2_2 : ∀ i : grid2.Coords, EltTy.bits .f32 = 32 ∨ (Rect.block (s := S128x1) S128x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x1.size a ≤ S128x1.size a
  hwx2_3 : ∀ i : grid2.Coords, EltTy.bits .f32 = 32 ∨ (Rect.block (s := S128x1) S128x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S8000x1.size a ≤ S800000x1.size a
  hwx2_5 : ∀ i : grid2.Coords, EltTy.bits .f32 = 32 ∨ (Rect.block (s := S800000x1) S8000x1.size (cc2_transform_5 i) (hinb2_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S1000x512_S512x128_S1000x128_1_0_0_1_n_n : DotDims S1000x512 S512x128 S1000x128 where
  lhsContracting := [1]
  rhsContracting := [0]
  lhsNonContracting := [0]
  rhsNonContracting := [1]
  lhsBatch := []
  rhsBatch := []
  wf := dot_S1000x512_S512x128_S1000x128_1_0_0_1_n_n_wf
def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x128_S128x1_S8000x1_1_0_0_1_n_n : DotDims S8000x128 S128x1 S8000x1 where
  lhsContracting := [1]
  rhsContracting := [0]
  lhsNonContracting := [0]
  rhsNonContracting := [1]
  lhsBatch := []
  rhsBatch := []
  wf := dot_S8000x128_S128x1_S8000x1_1_0_0_1_n_n_wf

abbrev win0_0 : Pipeline.Window sig grid0 :=
  Pipeline.Window.ofSpec (Memref.whole main_arg1) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v37) S1000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v54) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v55) S1000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v78) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v85) S8000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v86) S128x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v87) S128x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v88) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v89) S8000x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S2x800000 : Shape := ⟨2, ![2, 800000]⟩
abbrev S50000x512 : Shape := ⟨2, ![50000, 512]⟩
abbrev S800000 : Shape := ⟨1, ![800000]⟩
abbrev S512x128 : Shape := ⟨2, ![512, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S256x1 : Shape := ⟨2, ![256, 1]⟩
abbrev S1 : Shape := ⟨1, ![1]⟩
abbrev S1x800000 : Shape := ⟨2, ![1, 800000]⟩
abbrev S50000x128 : Shape := ⟨2, ![50000, 128]⟩
abbrev S1x128 : Shape := ⟨2, ![1, 128]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S850000x128 : Shape := ⟨2, ![850000, 128]⟩
abbrev S800000x1 : Shape := ⟨2, ![800000, 1]⟩
abbrev S800000x128 : Shape := ⟨2, ![800000, 128]⟩
abbrev S800000x256 : Shape := ⟨2, ![800000, 256]⟩
abbrev S1x1 : Shape := ⟨2, ![1, 1]⟩

abbrev nBuf : Space → Nat
  | .hbm => 188
  | .vmem => 0
  | .smem => 0
  | _ => 0

abbrev hbmTy0_0 (i : Nat) : BufTy := match i % 128 with
  | 0 => ⟨S2x800000, .i32⟩
  | 1 => ⟨S50000x512, .f32⟩
  | 2 => ⟨S800000, .f32⟩
  | 3 => ⟨S512x128, .f32⟩
  | 4 => ⟨S128, .f32⟩
  | 5 => ⟨S128x256, .f32⟩
  | 6 => ⟨S256, .f32⟩
  | 7 => ⟨S256x128, .f32⟩
  | 8 => ⟨S128, .f32⟩
  | 9 => ⟨S256x1, .f32⟩
  | 10 => ⟨S1, .f32⟩
  | 11 => ⟨S1x800000, .i32⟩
  | 12 => ⟨S800000, .i32⟩
  | 13 => ⟨S1x800000, .i32⟩
  | 14 => ⟨S800000, .i32⟩
  | 15 => ⟨S50000x128, .f32⟩
  | 16 => ⟨S1x128, .f32⟩
  | 17 => ⟨S50000x128, .f32⟩
  | 18 => ⟨S50000x128, .f32⟩
  | 19 => ⟨S50000, .i32⟩
  | 20 => ⟨S850000, .i32⟩
  | 21 => ⟨S850000, .i32⟩
  | 22 => ⟨S_, .f32⟩
  | 23 => ⟨S50000, .f32⟩
  | 24 => ⟨S850000, .f32⟩
  | 25 => ⟨S_, .f32⟩
  | 26 => ⟨S50000, .f32⟩
  | 27 => ⟨S850000x1, .i32⟩
  | 28 => ⟨S50000, .f32⟩
  | 29 => ⟨S_, .f32⟩
  | 30 => ⟨S50000, .f32⟩
  | 31 => ⟨S50000, .i1⟩
  | 32 => ⟨S_, .f32⟩
  | 33 => ⟨S_, .f32⟩
  | 34 => ⟨S50000, .f32⟩
  | 35 => ⟨S50000, .f32⟩
  | 36 => ⟨S_, .f32⟩
  | 37 => ⟨S50000, .f32⟩
  | 38 => ⟨S50000, .f32⟩
  | 39 => ⟨S_, .f32⟩
  | 40 => ⟨S50000, .f32⟩
  | 41 => ⟨S50000, .i1⟩
  | 42 => ⟨S_, .f32⟩
  | 43 => ⟨S_, .f32⟩
  | 44 => ⟨S50000, .f32⟩
  | 45 => ⟨S50000, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000, .f32⟩
  | 55 => ⟨S850000, .f32⟩
  | 56 => ⟨S_, .i32⟩
  | 57 => ⟨S850000, .i32⟩
  | 58 => ⟨S850000, .i1⟩
  | 59 => ⟨S_, .i32⟩
  | 60 => ⟨S850000, .i32⟩
  | 61 => ⟨S850000, .i32⟩
  | 62 => ⟨S850000, .i32⟩
  | 63 => ⟨S850000x1, .i32⟩
  | 64 => ⟨S850000, .f32⟩
  | 65 => ⟨S850000, .f32⟩
  | 66 => ⟨S50000x256, .f32⟩
  | 67 => ⟨S_, .i32⟩
  | 68 => ⟨S850000, .i32⟩
  | 69 => ⟨S850000, .i1⟩
  | 70 => ⟨S_, .i32⟩
  | 71 => ⟨S850000, .i32⟩
  | 72 => ⟨S850000, .i32⟩
  | 73 => ⟨S850000, .i32⟩
  | 74 => ⟨S850000x1, .i32⟩
  | 75 => ⟨S850000x256, .f32⟩
  | 76 => ⟨S850000x1, .f32⟩
  | 77 => ⟨S850000x256, .f32⟩
  | 78 => ⟨S850000x256, .f32⟩
  | 79 => ⟨S_, .f32⟩
  | 80 => ⟨S50000x256, .f32⟩
  | 81 => ⟨S850000x1, .i32⟩
  | 82 => ⟨S50000x256, .f32⟩
  | 83 => ⟨S1x256, .f32⟩
  | 84 => ⟨S50000x256, .f32⟩
  | 85 => ⟨S50000x256, .f32⟩
  | 86 => ⟨S_, .f32⟩
  | 87 => ⟨S50000x256, .f32⟩
  | 88 => ⟨S50000x256, .f32⟩
  | 89 => ⟨S50000, .i32⟩
  | 90 => ⟨S850000, .i32⟩
  | 91 => ⟨S850000, .i32⟩
  | 92 => ⟨S_, .f32⟩
  | 93 => ⟨S50000, .f32⟩
  | 94 => ⟨S850000, .f32⟩
  | 95 => ⟨S_, .f32⟩
  | 96 => ⟨S50000, .f32⟩
  | 97 => ⟨S850000x1, .i32⟩
  | 98 => ⟨S50000, .f32⟩
  | 99 => ⟨S_, .f32⟩
  | 100 => ⟨S50000, .f32⟩
  | 101 => ⟨S50000, .i1⟩
  | 102 => ⟨S_, .f32⟩
  | 103 => ⟨S_, .f32⟩
  | 104 => ⟨S50000, .f32⟩
  | 105 => ⟨S50000, .f32⟩
  | 106 => ⟨S_, .f32⟩
  | 107 => ⟨S50000, .f32⟩
  | 108 => ⟨S50000, .f32⟩
  | 109 => ⟨S_, .f32⟩
  | 110 => ⟨S50000, .f32⟩
  | 111 => ⟨S50000, .i1⟩
  | 112 => ⟨S_, .f32⟩
  | 113 => ⟨S_, .f32⟩
  | 114 => ⟨S50000, .f32⟩
  | 115 => ⟨S50000, .f32⟩
  | 116 => ⟨S_, .i32⟩
  | 117 => ⟨S850000, .i32⟩
  | 118 => ⟨S850000, .i1⟩
  | 119 => ⟨S_, .i32⟩
  | 120 => ⟨S850000, .i32⟩
  | 121 => ⟨S850000, .i32⟩
  | 122 => ⟨S850000, .i32⟩
  | 123 => ⟨S850000x1, .i32⟩
  | 124 => ⟨S850000, .f32⟩
  | 125 => ⟨S850000, .f32⟩
  | 126 => ⟨S_, .i32⟩
  | 127 => ⟨S850000, .i32⟩
  | _ => ⟨S2x800000, .i32⟩

abbrev hbmTy0_1 (i : Nat) : BufTy := match i % 128 with
  | 0 => ⟨S850000, .i1⟩
  | 1 => ⟨S_, .i32⟩
  | 2 => ⟨S850000, .i32⟩
  | 3 => ⟨S850000, .i32⟩
  | 4 => ⟨S850000, .i32⟩
  | 5 => ⟨S850000x1, .i32⟩
  | 6 => ⟨S850000, .f32⟩
  | 7 => ⟨S850000, .f32⟩
  | 8 => ⟨S50000x128, .f32⟩
  | 9 => ⟨S_, .i32⟩
  | 10 => ⟨S850000, .i32⟩
  | 11 => ⟨S850000, .i1⟩
  | 12 => ⟨S_, .i32⟩
  | 13 => ⟨S850000, .i32⟩
  | 14 => ⟨S850000, .i32⟩
  | 15 => ⟨S850000, .i32⟩
  | 16 => ⟨S850000x1, .i32⟩
  | 17 => ⟨S850000x128, .f32⟩
  | 18 => ⟨S850000x1, .f32⟩
  | 19 => ⟨S850000x128, .f32⟩
  | 20 => ⟨S850000x128, .f32⟩
  | 21 => ⟨S_, .f32⟩
  | 22 => ⟨S50000x128, .f32⟩
  | 23 => ⟨S850000x1, .i32⟩
  | 24 => ⟨S50000x128, .f32⟩
  | 25 => ⟨S1x128, .f32⟩
  | 26 => ⟨S50000x128, .f32⟩
  | 27 => ⟨S50000x128, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x128, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000x128, .f32⟩
  | 46 => ⟨S800000x256, .f32⟩
  | 47 => ⟨S800000x1, .f32⟩
  | 48 => ⟨S1x1, .f32⟩
  | 49 => ⟨S800000x1, .f32⟩
  | 50 => ⟨S800000x1, .f32⟩
  | 51 => ⟨S800000x1, .f32⟩
  | 52 => ⟨S800000x1, .f32⟩
  | 53 => ⟨S_, .f32⟩
  | 54 => ⟨S800000x1, .f32⟩
  | 55 => ⟨S800000x1, .f32⟩
  | 56 => ⟨S_, .f32⟩
  | 57 => ⟨S800000x1, .f32⟩
  | 58 => ⟨S800000x1, .f32⟩
  | 59 => ⟨S800000, .f32⟩
  | _ => ⟨S2x800000, .i32⟩

abbrev hbmTy (i : Nat) : BufTy := match i / 128 with
  | 0 => hbmTy0_0 i
  | 1 => hbmTy0_1 i
  | _ => ⟨S2x800000, .i32⟩

abbrev bufTy : (tb : Table) → Fin (tcTables nBuf tb) → BufTy
  | .hbm, ⟨i, _⟩ => hbmTy i
  | _, _ => ⟨S2x800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_cst_5 : Ref sig .tc := ⟨.hbm, 42, rfl⟩
abbrev main_call1_v0 : Ref sig .tc := ⟨.hbm, 43, rfl⟩
abbrev main_call1_v1 : Ref sig .tc := ⟨.hbm, 44, rfl⟩
abbrev main_v23 : Ref sig .tc := ⟨.hbm, 45, rfl⟩
abbrev main_c : Ref sig .tc := ⟨.hbm, 46, rfl⟩
abbrev main_v24 : Ref sig .tc := ⟨.hbm, 47, rfl⟩
abbrev main_v25 : Ref sig .tc := ⟨.hbm, 48, rfl⟩
abbrev main_c_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_7 : Ref sig .tc := ⟨.hbm, 56, rfl⟩
abbrev main_v32 : Ref sig .tc := ⟨.hbm, 57, rfl⟩
abbrev main_v33 : Ref sig .tc := ⟨.hbm, 58, rfl⟩
abbrev main_c_8 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_c_9 : Ref sig .tc := ⟨.hbm, 67, rfl⟩
abbrev main_v41 : Ref sig .tc := ⟨.hbm, 68, rfl⟩
abbrev main_v42 : Ref sig .tc := ⟨.hbm, 69, rfl⟩
abbrev main_c_10 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_11 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_call2_cst : Ref sig .tc := ⟨.hbm, 86, rfl⟩
abbrev main_call2_v0 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_12 : Ref sig .tc := ⟨.hbm, 92, rfl⟩
abbrev main_v61 : Ref sig .tc := ⟨.hbm, 93, rfl⟩
abbrev main_v62 : Ref sig .tc := ⟨.hbm, 94, rfl⟩
abbrev main_cst_13 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_14 : Ref sig .tc := ⟨.hbm, 99, rfl⟩
abbrev main_v66 : Ref sig .tc := ⟨.hbm, 100, rfl⟩
abbrev main_v67 : Ref sig .tc := ⟨.hbm, 101, rfl⟩
abbrev main_cst_15 : Ref sig .tc := ⟨.hbm, 102, rfl⟩
abbrev main_call3_v0 : Ref sig .tc := ⟨.hbm, 103, rfl⟩
abbrev main_call3_v1 : Ref sig .tc := ⟨.hbm, 104, rfl⟩
abbrev main_v68 : Ref sig .tc := ⟨.hbm, 105, rfl⟩
abbrev main_cst_16 : Ref sig .tc := ⟨.hbm, 106, rfl⟩
abbrev main_v69 : Ref sig .tc := ⟨.hbm, 107, rfl⟩
abbrev main_v70 : Ref sig .tc := ⟨.hbm, 108, rfl⟩
abbrev main_cst_17 : Ref sig .tc := ⟨.hbm, 109, rfl⟩
abbrev main_v71 : Ref sig .tc := ⟨.hbm, 110, rfl⟩
abbrev main_v72 : Ref sig .tc := ⟨.hbm, 111, rfl⟩
abbrev main_cst_18 : Ref sig .tc := ⟨.hbm, 112, rfl⟩
abbrev main_call4_v0 : Ref sig .tc := ⟨.hbm, 113, rfl⟩
abbrev main_call4_v1 : Ref sig .tc := ⟨.hbm, 114, rfl⟩
abbrev main_v73 : Ref sig .tc := ⟨.hbm, 115, rfl⟩
abbrev main_c_19 : Ref sig .tc := ⟨.hbm, 116, rfl⟩
abbrev main_v74 : Ref sig .tc := ⟨.hbm, 117, rfl⟩
abbrev main_v75 : Ref sig .tc := ⟨.hbm, 118, rfl⟩
abbrev main_c_20 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_c_21 : Ref sig .tc := ⟨.hbm, 126, rfl⟩
abbrev main_v82 : Ref sig .tc := ⟨.hbm, 127, rfl⟩
abbrev main_v83 : Ref sig .tc := ⟨.hbm, 128, rfl⟩
abbrev main_c_22 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_c_23 : Ref sig .tc := ⟨.hbm, 137, rfl⟩
abbrev main_v91 : Ref sig .tc := ⟨.hbm, 138, rfl⟩
abbrev main_v92 : Ref sig .tc := ⟨.hbm, 139, rfl⟩
abbrev main_c_24 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_cst_25 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_c_26 : Ref sig .tc := ⟨.hbm, 156, rfl⟩
abbrev main_v107 : Ref sig .tc := ⟨.hbm, 157, rfl⟩
abbrev main_v108 : Ref sig .tc := ⟨.hbm, 158, rfl⟩
abbrev main_c_27 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_c_28 : Ref sig .tc := ⟨.hbm, 165, rfl⟩
abbrev main_v114 : Ref sig .tc := ⟨.hbm, 166, rfl⟩
abbrev main_v115 : Ref sig .tc := ⟨.hbm, 167, rfl⟩
abbrev main_c_29 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_cst_30 : Ref sig .tc := ⟨.hbm, 181, rfl⟩
abbrev main_v128 : Ref sig .tc := ⟨.hbm, 182, rfl⟩
abbrev main_v129 : Ref sig .tc := ⟨.hbm, 183, rfl⟩
abbrev main_cst_31 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  shapeCasts_S800000x1_S800000 : S800000x1.ShapeCasts S800000
  dot_S50000x512_S512x128_S50000x128_1_0_0_1_n_n_wf : DotDims.WF S50000x512 S512x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  gather_S50000x128_S800000x1_S800000x128_1_0_n_n_0_1_1128_wf : GatherDims.WF S50000x128 S800000x1 S800000x128 [1] [0] [] [0] [] 1 ![1, 128]
  dot_S800000x256_S256x1_S800000x1_1_0_0_1_n_n_wf : DotDims.WF S800000x256 S256x1 S800000x1 [1] [0] [0] [1] [] []

variable [Facts₀]

def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x1_S800000x1_1_0_0_1_n_n : DotDims S800000x256 S256x1 S800000x1 where
  lhsContracting := [1]
  rhsContracting := [0]
  lhsNonContracting := [0]
  rhsNonContracting := [1]
  lhsBatch := []
  rhsBatch := []
  wf := dot_S800000x256_S256x1_S800000x1_1_0_0_1_n_n_wf

class Facts : Prop extends Facts₀ where

variable [Facts]
-- ==== Proof.ValueRun.lean ====
/-
  The idealized kernel's run with its result named.

  @main is twelve segments: five stretches of host operations, the first pipelined call, two stretches, the second
  call, one stretch, the third call and the closing reshape. The buffer contents at each boundary are a fold from
  the launch memory (the generated `W0` … `W12`). Launched from any memory, every weakly fair execution terminates
  with every unscoped buffer at the last boundary's contents; in particular the result buffer holds `W12` read at
  it, and each argument array is as launched. What `W12` holds there, as a function of the argument arrays, is read
  off the fold in the modules that import this one.
-/
import proofs.«115442_j20289425506515_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the argument arrays as launched. -/
theorem run : θ_run defs (onTc (τ := τ) (main (F := F))) ⟨m, fun _ => 0, ρ⟩ (fun r => ∀ c : Dev nD,
      r.2.mem ((c.tc : Thread nD τ).loc main_v90) = W12 m ρ c (Proc.devRef .tc main_v90)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v90 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c)⟩)

end Cert.KernelIdeal.ValueRun

end
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.LibWholeProduct.lean ====
/-
  The matrix product of an M×K array with a K×N array on the extended reals, as ONE function of the two arrays:
  entry (p, c) is Σ_{q < K} x[p, q] · w[q, c] (`mm`). The vector unit's product into a zero accumulator (whatever
  float formats its operands were cast to) and the host's dot_general (contract the left operand's axis 1 with the
  right operand's axis 0, no batch axes) are both this function, as whole arrays (`matmul_zero_eq`,
  `dotGeneral_eq`). An entry depends on one row of the left operand and one column of the right operand
  (`mm_eq_of_row_col`): two products of arrays of any heights and widths agree at a pair of entries whose row and
  column agree term by term — what a product computed a block of rows at a time needs. Any extents; no program.
-/
import proofs.«115442_j20289425506515_1_alg».proof.Proof.LibPlainDot

noncomputable section

open scoped BigOperators

namespace Cert.Product

open Idealize.ShloMosaic Idealize.ShloMosaic.ValueIdx Cert.PlainDot

/-- The product, entry by entry. -/
def mm {M K N : Nat} (x : (⟨2, ![M, K]⟩ : Shape).Idx → EReal) (w : (⟨2, ![K, N]⟩ : Shape).Idx → EReal) :
    (⟨2, ![M, N]⟩ : Shape).Idx → EReal :=
  fun i => ∑ q : Fin K, x (ix2 (i 0) q) * w (ix2 q (i 1))

theorem mm_apply {M K N : Nat} (x : (⟨2, ![M, K]⟩ : Shape).Idx → EReal) (w : (⟨2, ![K, N]⟩ : Shape).Idx → EReal)
    (p : Fin M) (c : Fin N) : mm x w (ix2 p c) = ∑ q : Fin K, x (ix2 p q) * w (ix2 q c) := rfl

/-- An entry of a product depends on one row of the left operand and one column of the right operand: two products,
    of arrays of any heights and widths, agree at a pair of entries whose row and column agree term by term. -/
theorem mm_eq_of_row_col {M K N M' N' : Nat}
    (x : (⟨2, ![M, K]⟩ : Shape).Idx → EReal) (w : (⟨2, ![K, N]⟩ : Shape).Idx → EReal)
    (x' : (⟨2, ![M', K]⟩ : Shape).Idx → EReal) (w' : (⟨2, ![K, N']⟩ : Shape).Idx → EReal)
    (i : (⟨2, ![M, N]⟩ : Shape).Idx) (i' : (⟨2, ![M', N']⟩ : Shape).Idx)
    (hx : ∀ q : Fin K, x (ix2 (i 0) q) = x' (ix2 (i' 0) q)) (hw : ∀ q : Fin K, w (ix2 q (i 1)) = w' (ix2 q (i' 1))) :
    mm x w i = mm x' w' i' :=
  Finset.sum_congr rfl fun q _ => by rw [hx q, hw q]

variable {M K N : Nat} {d : DotDims ⟨2, ![M, K]⟩ ⟨2, ![K, N]⟩ ⟨2, ![M, N]⟩}

/-- The host's dot_general of a plain product is `mm`. -/
theorem dotGeneral_eq (h : IsPlain d) (prec : Option ContractPrecision)
    (l : FVec Ideal ⟨2, ![M, K]⟩ .f32) (r : FVec Ideal ⟨2, ![K, N]⟩ .f32) :
    Host.dotGeneral d prec l r = mm l r := by
  funext i
  rw [eq_ix2 i]
  exact dotGeneral_apply h prec l r (i 0) (i 1)

/-- The vector unit's product into a zero accumulator is `mm`, whatever float formats the operands were cast to. -/
theorem matmul_zero_eq (h : IsPlain d) (prec : Option ContractPrecision) {φ₁ φ₂ : FTy}
    (l : FVec Ideal ⟨2, ![M, K]⟩ φ₁) (r : FVec Ideal ⟨2, ![K, N]⟩ φ₂) :
    matmul d prec l r (constant ⟨2, ![M, N]⟩ .f32 0x00000000#32) = mm (K := K) (fun i => l i) (fun i => r i) := by
  funext i
  rw [eq_ix2 i]
  exact matmul_zero_apply h prec l r (i 0) (i 1)

end Cert.Product

end
-- ==== Proof.LibDenseLayer.lean ====
/-
  Dense (fully connected) layers on the extended reals, and the same layers as a vector unit computes them.

  A matrix is a function of a rank-2 index. The AFFINE layer  l · w + b  has entry (p, c) equal to
  Σ_q l[p,q] · w[q,c] + b[0,c], the bias a 1×N row repeated down the rows; the HIDDEN layer takes the maximum of that with
  the float word of 0.0 (relu; the word is never evaluated). Three kinds of facts, any extents, no program needed:

  * entry (p, c) of a layer depends only on row p of the left operand, column c of the weights and entry c of the bias
    row (`affine_congr`, `hidden_congr`; `network_rows` for a stack of two hidden layers and an affine one), which is what
    lets a block computed from a tile of an operand be read as a block of the layer of the whole arrays;
  * a product into a zero accumulator, plus the bias row broadcast down the rows, and the maximum with the zero splat,
    is the layer as a whole array (`affine_eq`, `hidden_eq`; `product_apply` for the product alone), for dimension numbers
    contracting the left operand's second axis against the right operand's first, any operand formats;
  * a change of float format is the identity (`truncf_eq`) and a vector reshaped to a 1×A row is `row` of it
    (`reshape_row`).
-/
import Idealize.ShloMosaic.PureOps.Ideal.Laws
import Idealize.ShloMosaic.Lib.ValueIdx
import Idealize.ShloMosaic.Lib.ValueLayout
import proofs.«115442_j20289425506515_1_alg».proof.Proof.LibPlainDot

noncomputable section

open scoped BigOperators

namespace Cert.DenseLayer

open Idealize.ShloMosaic Idealize.ShloMosaic.ValueIdx

/-- An A×B matrix of extended reals. -/
abbrev Mat (A B : Nat) : Type := (⟨2, ![A, B]⟩ : Shape).Idx → EReal
/-- A length-A vector of extended reals. -/
abbrev Vect (A : Nat) : Type := (⟨1, ![A]⟩ : Shape).Idx → EReal

/-- The float word of 0.0 read on the extended reals. -/
abbrev zeroWord : EReal := Ideal.ofBits .f32 0x00000000#32

/-- A vector laid out as a 1×A row. -/
def row {A : Nat} (v : Vect A) : Mat 1 A := fun i => v (ix1 (i 1))

theorem row_apply {A : Nat} (v : Vect A) (u : Fin 1) (c : Fin A) : row v (ix2 u c) = v (ix1 c) := rfl

/-- A vector reshaped to a 1×A row is `row` of it. -/
theorem reshape_row {A : Nat} (v : Vect A) (h : (⟨1, ![A]⟩ : Shape).ShapeCasts ⟨2, ![1, A]⟩) :
    shapeCast ⟨2, ![1, A]⟩ v h = row v := by
  funext i
  obtain ⟨u, q, rfl⟩ : ∃ (u : Fin 1) (q : Fin A), i = ix2 u q := ⟨i 0, i 1, eq_ix2 i⟩
  rw [shapeCast_a_1a_apply, row_apply]

/-- l · w + b, the bias a 1×N row repeated down the rows. -/
def affine {M K N : Nat} (l : Mat M K) (w : Mat K N) (b : Mat 1 N) : Mat M N :=
  fun j => (∑ q : Fin K, l (ix2 (j 0) q) * w (ix2 q (j 1))) + b (ix2 (0 : Fin 1) (j 1))

theorem affine_apply {M K N : Nat} (l : Mat M K) (w : Mat K N) (b : Mat 1 N) (p : Fin M) (c : Fin N) :
    affine l w b (ix2 p c) = (∑ q : Fin K, l (ix2 p q) * w (ix2 q c)) + b (ix2 (0 : Fin 1) c) := rfl

/-- relu(l · w + b). -/
def hidden {M K N : Nat} (l : Mat M K) (w : Mat K N) (b : Mat 1 N) : Mat M N :=
  fun j => max (affine l w b j) zeroWord

theorem hidden_apply {M K N : Nat} (l : Mat M K) (w : Mat K N) (b : Mat 1 N) (p : Fin M) (c : Fin N) :
    hidden l w b (ix2 p c) = max ((∑ q : Fin K, l (ix2 p q) * w (ix2 q c)) + b (ix2 (0 : Fin 1) c)) zeroWord := rfl

/-! ## An entry depends on one row, one column and one bias entry -/

section Congr
variable {M M' K N N' : Nat}

theorem affine_congr (l : Mat M K) (l' : Mat M' K) (w : Mat K N) (w' : Mat K N') (b : Mat 1 N) (b' : Mat 1 N')
    (p : Fin M) (p' : Fin M') (c : Fin N) (c' : Fin N')
    (hl : ∀ q : Fin K, l (ix2 p q) = l' (ix2 p' q)) (hw : ∀ q : Fin K, w (ix2 q c) = w' (ix2 q c'))
    (hb : b (ix2 (0 : Fin 1) c) = b' (ix2 (0 : Fin 1) c')) :
    affine l w b (ix2 p c) = affine l' w' b' (ix2 p' c') := by
  rw [affine_apply, affine_apply, hb]
  exact congrArg (· + b' (ix2 (0 : Fin 1) c')) (Finset.sum_congr rfl fun q _ => by rw [hl q, hw q])

theorem hidden_congr (l : Mat M K) (l' : Mat M' K) (w : Mat K N) (w' : Mat K N') (b : Mat 1 N) (b' : Mat 1 N')
    (p : Fin M) (p' : Fin M') (c : Fin N) (c' : Fin N')
    (hl : ∀ q : Fin K, l (ix2 p q) = l' (ix2 p' q)) (hw : ∀ q : Fin K, w (ix2 q c) = w' (ix2 q c'))
    (hb : b (ix2 (0 : Fin 1) c) = b' (ix2 (0 : Fin 1) c')) :
    hidden l w b (ix2 p c) = hidden l' w' b' (ix2 p' c') :=
  congrArg (max · zeroWord) (affine_congr l l' w w' b b' p p' c c' hl hw hb)

/-- Rows of a network of two hidden layers and an affine one: a block of input rows gives the same rows of the output. -/
theorem network_rows {K1 K2 K3 : Nat} (x : Mat M K1) (x' : Mat M' K1) (w1 : Mat K1 K2) (b1 : Mat 1 K2) (w2 : Mat K2 K3) (b2 : Mat 1 K3)
    (w3 : Mat K3 N) (b3 : Mat 1 N) (p : Fin M) (p' : Fin M') (hx : ∀ q : Fin K1, x (ix2 p q) = x' (ix2 p' q)) (c : Fin N) :
    affine (hidden (hidden x w1 b1) w2 b2) w3 b3 (ix2 p c) = affine (hidden (hidden x' w1 b1) w2 b2) w3 b3 (ix2 p' c) :=
  affine_congr _ _ w3 w3 b3 b3 p p' c c
    (fun n => hidden_congr _ _ w2 w2 b2 b2 p p' n n
      (fun k => hidden_congr x x' w1 w1 b1 b1 p p' k k hx (fun _ => rfl) rfl) (fun _ => rfl) rfl)
    (fun _ => rfl) rfl

end Congr

/-! ## The layers as the vector unit computes them -/

section Unit
variable {M K N : Nat} {d : DotDims ⟨2, ![M, K]⟩ ⟨2, ![K, N]⟩ ⟨2, ![M, N]⟩}

/-- Product into a zero accumulator plus the bias row: the affine layer. -/
theorem affine_eq (hd : Cert.PlainDot.IsPlain d) (prec : Option ContractPrecision) {φ₁ φ₂ : FTy}
    (l : FVec Ideal ⟨2, ![M, K]⟩ φ₁) (w : FVec Ideal ⟨2, ![K, N]⟩ φ₂) (b : FVec Ideal ⟨2, ![1, N]⟩ .f32)
    (hb : (⟨2, ![1, N]⟩ : Shape).Broadcasts ⟨2, ![M, N]⟩) :
    addf (matmul d prec l w (constant ⟨2, ![M, N]⟩ .f32 0x00000000#32)) (broadcastTo ⟨2, ![M, N]⟩ b hb)
      = affine l w b := by
  funext j
  obtain ⟨p, c, rfl⟩ : ∃ (p : Fin M) (c : Fin N), j = ix2 p c := ⟨j 0, j 1, eq_ix2 j⟩
  rw [addf_apply, Cert.PlainDot.matmul_zero_apply hd, broadcastTo_1b_ab_apply, affine_apply]

/-- … and the maximum with the zero splat: the hidden layer. -/
theorem hidden_eq (hd : Cert.PlainDot.IsPlain d) (prec : Option ContractPrecision) {φ₁ φ₂ : FTy}
    (l : FVec Ideal ⟨2, ![M, K]⟩ φ₁) (w : FVec Ideal ⟨2, ![K, N]⟩ φ₂) (b : FVec Ideal ⟨2, ![1, N]⟩ .f32)
    (hb : (⟨2, ![1, N]⟩ : Shape).Broadcasts ⟨2, ![M, N]⟩) :
    maximumf (addf (matmul d prec l w (constant ⟨2, ![M, N]⟩ .f32 0x00000000#32)) (broadcastTo ⟨2, ![M, N]⟩ b hb))
        (broadcast ⟨2, ![M, N]⟩ (Scalar.ofBits (F := Ideal) .f32 0x00000000#32))
      = hidden l w b := by
  rw [affine_eq hd]
  rfl

/-- A product into a zero accumulator alone, entry by entry. -/
theorem product_apply (hd : Cert.PlainDot.IsPlain d) (prec : Option ContractPrecision) {φ₁ φ₂ : FTy}
    (l : FVec Ideal ⟨2, ![M, K]⟩ φ₁) (w : FVec Ideal ⟨2, ![K, N]⟩ φ₂) (p : Fin M) (c : Fin N) :
    matmul d prec l w (constant ⟨2, ![M, N]⟩ .f32 0x00000000#32) (ix2 p c) = ∑ q : Fin K, l (ix2 p q) * w (ix2 q c) :=
  Cert.PlainDot.matmul_zero_apply hd prec l w p c

end Unit

/-- A change of float format is the identity on the extended reals. -/
theorem truncf_eq {s : Shape} {φ ψ : FTy} (a : FVec Ideal s φ) (h : ψ.bits < φ.bits) :
    (truncf ψ a h : FVec Ideal s ψ) = a := rfl

end Cert.DenseLayer

end
-- ==== Proof.LibBroadcast.lean ====
/-
  BROADCASTS BY DIMENSION MAP, READ AT ONE ENTRY (general lemmas: any extents, any element type).

  * a vector `[E]` broadcast to the column `[E, 1]` along axis 0: the entry at `(e, 0)` is the vector's entry `e`;
  * a column `[N, 1]` broadcast to `[N, C]` along axes (0, 1): the entry at `(n, c)` is the column's entry at row `n`;
  * a vector `[C]` broadcast to the row `[1, C]` along axis 1 and then down `N` rows: the entry at `(n, c)` is the
    vector's entry `c`;
  * a rank-0 value broadcast over any shape: every entry is that value.
  (An operand axis of extent one is read at coordinate zero, so the extents that are not unit axes are assumed `≠ 1`.)
-/
import Idealize.ShloMosaic.Lib.Pipeline.Value
import Idealize.ShloMosaic.Lib.ValueIdx

noncomputable section

namespace Cert.Bcast

open Idealize.ShloMosaic Idealize.ShloMosaic.ValueIdx

/-- A vector as a column. -/
theorem col_apply {α : Type} {E : Nat} (hE : E ≠ 1) (x : (⟨1, ![E]⟩ : Shape).Idx → α)
    (h : (⟨1, ![E]⟩ : Shape).BroadcastsInDim ⟨2, ![E, 1]⟩ ![0]) (e : Fin E) (u : Fin 1) :
    broadcastInDim ⟨2, ![E, 1]⟩ ![0] h x (ix2 e u) = x (ix1 e) :=
  broadcastInDim_apply ![0] h x (ix2 e u) (ix1 e) (fun a => by
    match a with
    | ⟨0, _⟩ =>
      show e.val = if E = 1 then 0 else e.val
      rw [if_neg hE])

/-- A column repeated across `C` columns. -/
theorem rows_of_col_apply {α : Type} {N C : Nat} (hN : N ≠ 1) (x : (⟨2, ![N, 1]⟩ : Shape).Idx → α)
    (h : (⟨2, ![N, 1]⟩ : Shape).BroadcastsInDim ⟨2, ![N, C]⟩ ![0, 1]) (n : Fin N) (c : Fin C) :
    broadcastInDim ⟨2, ![N, C]⟩ ![0, 1] h x (ix2 n c) = x (ix2 n (0 : Fin 1)) :=
  broadcastInDim_apply ![0, 1] h x (ix2 n c) (ix2 n (0 : Fin 1)) (fun a => by
    match a with
    | ⟨0, _⟩ =>
      show n.val = if N = 1 then 0 else n.val
      rw [if_neg hN]
    | ⟨1, _⟩ =>
      show (0 : ℕ) = if (1 : ℕ) = 1 then 0 else c.val
      rw [if_pos rfl])

/-- A bias vector laid out as a row and repeated down `N` rows. -/
theorem bias_rows_apply {α : Type} {N C : Nat} (hC : C ≠ 1) (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![N, C]⟩ ![0, 1]) (n : Fin N) (c : Fin C) :
    broadcastInDim ⟨2, ![N, C]⟩ ![0, 1] h2 (broadcastInDim ⟨2, ![1, C]⟩ ![1] h1 b) (ix2 n c) = b (ix1 c) :=
  (broadcastInDim_apply ![0, 1] h2 _ (ix2 n c) (ix2 (0 : Fin 1) c) (fun a => by
    match a with
    | ⟨0, _⟩ =>
      show (0 : ℕ) = if (1 : ℕ) = 1 then 0 else n.val
      rw [if_pos rfl]
    | ⟨1, _⟩ =>
      show c.val = if C = 1 then 0 else c.val
      rw [if_neg hC])).trans
  (broadcastInDim_apply ![1] h1 b (ix2 (0 : Fin 1) c) (ix1 c) (fun a => by
    match a with
    | ⟨0, _⟩ =>
      show c.val = if C = 1 then 0 else c.val
      rw [if_neg hC]))

/-- A rank-0 value broadcast over a shape. -/
theorem scalar_apply {α : Type} {s : Shape} (x : (⟨0, ![]⟩ : Shape).Idx → α)
    (h : (⟨0, ![]⟩ : Shape).BroadcastsInDim s ![]) (i : s.Idx) :
    broadcastInDim s ![] h x i = x ix0 :=
  broadcastInDim_apply (s := ⟨0, ![]⟩) ![] h x i ix0 (fun a => a.elim0)

end Cert.Bcast

end
-- ==== Proof.LibHostDense.lean ====
/-
  Dense layers as the host spells them, on the extended reals.

  The host writes a fully connected layer as a `dot_general` contracting the left operand's second axis against
  the weights' first, plus the length-N bias laid out as a 1×N row (a broadcast along axis 1) and repeated down the
  rows (a broadcast along axes (0, 1)); a hidden layer takes the maximum of that with a rank-0 zero broadcast over
  the whole shape. As whole arrays these are the affine layer  l · w + b  and the hidden layer  relu(l · w + b)  of
  the bias as a row; a stack of a hidden and an affine layer is the two-layer network `mlp`. Any extents (a bias
  length of 1 excepted: the broadcast rule branches on it); no program needed.
-/
import Idealize.ShloMosaic.PureOps.Ideal.Laws
import Idealize.ShloMosaic.Lib.ValueIdx
import proofs.«115442_j20289425506515_1_alg».proof.Proof.LibPlainDot
import proofs.«115442_j20289425506515_1_alg».proof.Proof.LibDenseLayer
import proofs.«115442_j20289425506515_1_alg».proof.Proof.LibBroadcast

noncomputable section

open scoped BigOperators

namespace Cert.HostDense

open Idealize.ShloMosaic Idealize.ShloMosaic.ValueIdx Cert.DenseLayer

/-- The two-layer network  relu(x · w1 + b1) · w2 + b2,  the biases plain vectors. -/
def mlp {M K H N : Nat} (x : Mat M K) (w1 : Mat K H) (b1 : Vect H) (w2 : Mat H N) (b2 : Vect N) : Mat M N :=
  affine (hidden x w1 (row b1)) w2 (row b2)

section Layers
variable {M K N : Nat} {d : DotDims ⟨2, ![M, K]⟩ ⟨2, ![K, N]⟩ ⟨2, ![M, N]⟩}

/-- The host's product plus its bias broadcast twice is the affine layer of the bias as a row. -/
theorem affine_eq (hd : Cert.PlainDot.IsPlain d) (hN : N ≠ 1) (prec : Option ContractPrecision)
    (l : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral d prec l w) (broadcastInDim ⟨2, ![M, N]⟩ ![0, 1] h2 (broadcastInDim ⟨2, ![1, N]⟩ ![1] h1 b))
      = affine l w (row b) := by
  funext j
  obtain ⟨p, c, rfl⟩ : ∃ (p : Fin M) (c : Fin N), j = ix2 p c := ⟨j 0, j 1, eq_ix2 j⟩
  rw [addf_apply, Cert.PlainDot.dotGeneral_apply hd, Cert.Bcast.bias_rows_apply hN, affine_apply, row_apply]

/-- … and the maximum with the zero word broadcast over the shape: the hidden layer. -/
theorem hidden_eq (hd : Cert.PlainDot.IsPlain d) (hN : N ≠ 1) (prec : Option ContractPrecision)
    (l : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf (Host.dotGeneral d prec l w) (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = hidden l w (row b) := by
  rw [affine_eq hd hN]
  funext j
  rw [maximumf_apply, Cert.Bcast.scalar_apply]
  rfl

end Layers

/-- The host's two layers in a row are the two-layer network. -/
theorem mlp_eq {M K H N : Nat} {d1 : DotDims ⟨2, ![M, K]⟩ ⟨2, ![K, H]⟩ ⟨2, ![M, H]⟩} {d2 : DotDims ⟨2, ![M, H]⟩ ⟨2, ![H, N]⟩ ⟨2, ![M, N]⟩}
    (hd1 : Cert.PlainDot.IsPlain d1) (hd2 : Cert.PlainDot.IsPlain d2) (hH : H ≠ 1) (hN : N ≠ 1) (prec1 prec2 : Option ContractPrecision)
    (x : FVec Ideal ⟨2, ![M, K]⟩ .f32) (w1 : FVec Ideal ⟨2, ![K, H]⟩ .f32) (b1 : FVec Ideal ⟨1, ![H]⟩ .f32)
    (w2 : FVec Ideal ⟨2, ![H, N]⟩ .f32) (b2 : FVec Ideal ⟨1, ![N]⟩ .f32)
    (g1 : (⟨1, ![H]⟩ : Shape).BroadcastsInDim ⟨2, ![1, H]⟩ ![1]) (g2 : (⟨2, ![1, H]⟩ : Shape).BroadcastsInDim ⟨2, ![M, H]⟩ ![0, 1])
    (g0 : (⟨0, ![]⟩ : Shape).BroadcastsInDim ⟨2, ![M, H]⟩ ![])
    (h1 : (⟨1, ![N]⟩ : Shape).BroadcastsInDim ⟨2, ![1, N]⟩ ![1]) (h2 : (⟨2, ![1, N]⟩ : Shape).BroadcastsInDim ⟨2, ![M, N]⟩ ![0, 1]) :
    addf (Host.dotGeneral d2 prec2
        (maximumf (addf (Host.dotGeneral d1 prec1 x w1) (broadcastInDim ⟨2, ![M, H]⟩ ![0, 1] g2 (broadcastInDim ⟨2, ![1, H]⟩ ![1] g1 b1)))
          (broadcastInDim ⟨2, ![M, H]⟩ ![] g0 (constant (F := Ideal) ⟨0, ![]⟩ .f32 0x00000000#32))) w2)
      (broadcastInDim ⟨2, ![M, N]⟩ ![0, 1] h2 (broadcastInDim ⟨2, ![1, N]⟩ ![1] h1 b2))
      = mlp x w1 b1 w2 b2 := by
  rw [hidden_eq hd1 hH, affine_eq hd2 hN]
  rfl

end Cert.HostDense

end
-- ==== Proof.LibChainedProduct.lean ====
/-
  Two dense products in a row on the extended reals:  (x · w1 + b) · w2,  the bias b a 1×H row repeated down the rows,
  as ONE whole-array function of the four arrays (`chain`).

  * `chain_congr`: an entry of row p depends on row p of x only, so a block of rows of x gives that block of rows of
    the result (the weights and the bias whole);
  * `chain_unit`: a product into a zero accumulator, plus the bias row broadcast down the rows, its float format
    changed, multiplied into a second zero accumulator, is `chain` (any operand formats: a change of format is the
    identity here);
  * `chain_host`: a dot_general, plus the length-H bias broadcast to a row and then down the rows, fed to a second
    dot_general, is `chain` of the bias as a row (H ≠ 1).
  Any extents; no program needed.
-/
import proofs.«115442_j20289425506515_1_alg».proof.Proof.LibPlainDot
import proofs.«115442_j20289425506515_1_alg».proof.Proof.LibWholeProduct
import proofs.«115442_j20289425506515_1_alg».proof.Proof.LibDenseLayer
import proofs.«115442_j20289425506515_1_alg».proof.Proof.LibHostDense

noncomputable section

open scoped BigOperators

namespace Cert.ChainedProduct

open Idealize.ShloMosaic Idealize.ShloMosaic.ValueIdx Cert.DenseLayer Cert.Product Cert.PlainDot

/-- (x · w1 + b) · w2. -/
def chain {M K H N : Nat} (x : Mat M K) (w1 : Mat K H) (b : Mat 1 H) (w2 : Mat H N) : Mat M N :=
  mm (affine x w1 b) w2

/-- An entry at row p, column c depends on row p of x, column c of w2, and the first weights and the bias entry by
    entry: two chains whose operands agree there agree at the entry, whatever their heights and widths. -/
theorem chain_congr {M M' K H N N' : Nat} (x : Mat M K) (x' : Mat M' K) (w1 w1' : Mat K H) (b b' : Mat 1 H)
    (w2 : Mat H N) (w2' : Mat H N') (i : (⟨2, ![M, N]⟩ : Shape).Idx) (i' : (⟨2, ![M', N']⟩ : Shape).Idx)
    (hx : ∀ q : Fin K, x (ix2 (i 0) q) = x' (ix2 (i' 0) q))
    (hw1 : ∀ (q : Fin K) (n : Fin H), w1 (ix2 q n) = w1' (ix2 q n))
    (hb : ∀ n : Fin H, b (ix2 (0 : Fin 1) n) = b' (ix2 (0 : Fin 1) n))
    (hw2 : ∀ n : Fin H, w2 (ix2 n (i 1)) = w2' (ix2 n (i' 1))) :
    chain x w1 b w2 i = chain x' w1' b' w2' i' :=
  mm_eq_of_row_col _ w2 _ w2' i i'
    (fun n => affine_congr x x' w1 w1' b b' (i 0) (i' 0) n n hx (fun q => hw1 q n) (hb n))
    hw2

section Unit
variable {M K H N : Nat} {d1 : DotDims ⟨2, ![M, K]⟩ ⟨2, ![K, H]⟩ ⟨2, ![M, H]⟩} {d2 : DotDims ⟨2, ![M, H]⟩ ⟨2, ![H, N]⟩ ⟨2, ![M, N]⟩}

/-- The vector unit's two products with the bias row between them. -/
theorem chain_unit (h1 : IsPlain d1) (h2 : IsPlain d2) (prec1 prec2 : Option ContractPrecision) {φ₁ φ₂ φ₃ ψ : FTy}
    (x : FVec Ideal ⟨2, ![M, K]⟩ φ₁) (w1 : FVec Ideal ⟨2, ![K, H]⟩ φ₂) (b : FVec Ideal ⟨2, ![1, H]⟩ .f32)
    (w2 : FVec Ideal ⟨2, ![H, N]⟩ φ₃) (hb : (⟨2, ![1, H]⟩ : Shape).Broadcasts ⟨2, ![M, H]⟩) (ht : ψ.bits < FTy.f32.bits) :
    matmul d2 prec2
        (truncf ψ (addf (matmul d1 prec1 x w1 (constant ⟨2, ![M, H]⟩ .f32 0x00000000#32)) (broadcastTo ⟨2, ![M, H]⟩ b hb)) ht)
        w2 (constant ⟨2, ![M, N]⟩ .f32 0x00000000#32)
      = chain x w1 b w2 := by
  rw [truncf_eq, Cert.DenseLayer.affine_eq h1, matmul_zero_eq h2]
  rfl

/-- The host's two products with the bias broadcast between them. -/
theorem chain_host (h1 : IsPlain d1) (h2 : IsPlain d2) (hH : H ≠ 1) (prec1 prec2 : Option ContractPrecision)
    (x : FVec Ideal ⟨2, ![M, K]⟩ .f32) (w1 : FVec Ideal ⟨2, ![K, H]⟩ .f32) (b : FVec Ideal ⟨1, ![H]⟩ .f32)
    (w2 : FVec Ideal ⟨2, ![H, N]⟩ .f32)
    (g1 : (⟨1, ![H]⟩ : Shape).BroadcastsInDim ⟨2, ![1, H]⟩ ![1])
    (g2 : (⟨2, ![1, H]⟩ : Shape).BroadcastsInDim ⟨2, ![M, H]⟩ ![0, 1]) :
    Host.dotGeneral d2 prec2
        (addf (Host.dotGeneral d1 prec1 x w1) (broadcastInDim ⟨2, ![M, H]⟩ ![0, 1] g2 (broadcastInDim ⟨2, ![1, H]⟩ ![1] g1 b))) w2
      = chain x w1 (row b) w2 := by
  rw [Cert.HostDense.affine_eq h1 hH, dotGeneral_eq h2]
  rfl

end Unit

end Cert.ChainedProduct

end
-- ==== Proof.FusedRows.lean ====
/-
  The first pipelined call, (x · W1 + b) · W2 with x of 50000 rows of 512 features, W1 512×128, b a 1×128 row and W2
  128×256, computed 1000 rows at a time over 50 grid points: the array it leaves is the whole chained product.

  Point t loads rows 1000t … 1000t + 999 of x and all of W1, b and W2; it multiplies, adds the bias row, multiplies
  again (each product into a zero accumulator; changes of float format are the identity on the extended reals) and
  writes the 1000×256 result back as the same rows of the output. An entry at row p of a chained product depends on
  row p of x only, so what point t writes is rows 1000t … of the whole chained product; the 50 row blocks tile the
  50000 rows. Stated for ANY contents `V` the region is entered with.
-/
import proofs.«115442_j20289425506515_1_alg».proof.Proof.Gen.KernelIdeal.Frame
import proofs.«115442_j20289425506515_1_alg».proof.Proof.LibWholeProduct
import proofs.«115442_j20289425506515_1_alg».proof.Proof.LibDenseLayer
import proofs.«115442_j20289425506515_1_alg».proof.Proof.LibChainedProduct
import Idealize.ShloMosaic.Lib.Pipeline.Value
import Idealize.ShloMosaic.Lib.ValueIdx

set_option maxRecDepth 16384

noncomputable section

open scoped BigOperators

namespace Cert.KernelIdeal.FusedRows

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.Product Cert.DenseLayer Cert.PlainDot Cert.ChainedProduct

variable (V : (c : Dev nD) → (b : Ref sig .tc) → Buf (Elt Ideal) ((c : Thread nD τ).loc b))

theorem hz : (![0, 0] : Fin 2 → Nat) = fun _ => 0 := funext fun a => by fin_cases a <;> rfl

/-- Both of the body's products have the dimension numbers of a plain product. -/
theorem plain_first : IsPlain dot_S1000x512_S512x128_S1000x128_1_0_0_1_n_n := ⟨rfl, rfl, rfl, rfl, rfl, rfl⟩
theorem plain_second : IsPlain dot_S1000x128_S128x256_S1000x256_1_0_0_1_n_n := ⟨rfl, rfl, rfl, rfl, rfl, rfl⟩

/-- What the body stores is the chained product of its four loaded blocks. -/
theorem stored_eq (x : Vec Ideal S1000x512 .f32) (w1 : Vec Ideal S512x128 .f32) (b : Vec Ideal S1x128 .f32)
    (w2 : Vec Ideal S128x256 .f32) :
    k0_pay1 x w1 b w2 = chain (M := 1000) (K := 512) (H := 128) (N := 256) x w1 b w2 := by
  unfold k0_pay1
  dsimp only
  rw [shapeCast_self]
  exact chain_unit plain_first plain_second none none _ _ _ _ _ _

/-- The index maps over the grid: x's and the output's row block is the point's number, everything else is block 0. -/
theorem blocks : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point t writes back is rows 1000t … of the whole chained product of the arrays the region is entered with. -/
theorem flushed_eq (c : Dev nD) (t : Fin cfg0.N) :
    (dat0 V c).flushed 4 t
      = ((cfg0.win 4).blk t).view.read (Elt Ideal)
          (chain (M := 50000) (K := 512) (H := 128) (N := 256) (V c main_arg1) (V c main_arg3) (V c main_v36) (V c main_arg5)) := by
  show (cfg0.win 4).cut (grid0.coords t) ((dat0 V c).after 4 t) = _
  rw [after0_4]
  unfold out0_4
  rw [View.canon_unit_zero hz]
  simp only [View.ld_unit_zero (S := S1000x512) hz, View.ld_unit_zero (S := S512x128) hz, View.ld_unit_zero (S := S1x128) hz,
    View.ld_unit_zero (S := S128x256) hz]
  rw [stored_eq]
  obtain ⟨e0, e1, e2, e3, e4, e5, e6, e7, e8, e9⟩ := blocks t
  funext j
  show chain (M := 1000) (K := 512) (H := 128) (N := 256) (iblk0 V c 0 t) (iblk0 V c 1 t) (iblk0 V c 2 t) (iblk0 V c 3 t) j
    = chain (M := 50000) (K := 512) (H := 128) (N := 256) (V c main_arg1) (V c main_arg3) (V c main_v36) (V c main_arg5)
        (((cfg0.win 4).blk t).view.emb j)
  refine chain_congr _ _ _ _ _ _ _ _ _ _ (fun q => ?_) (fun q n => ?_) (fun n => ?_) (fun n => ?_)
  · show V c main_arg1 (((cfg0.win 0).blk t).view.emb (ix2 (j 0) q)) = V c main_arg1 (ix2 ((((cfg0.win 4).blk t).view.emb j) 0) q)
    refine congrArg (V c main_arg1) (funext fun a => Fin.ext ?_)
    match a with
    | ⟨0, _⟩ => show win0_0.index t (0 : Fin 2) * 1000 + 1 * (j 0).val = win0_4.index t (0 : Fin 2) * 1000 + 1 * (j 0).val; omega
    | ⟨1, _⟩ => show win0_0.index t (1 : Fin 2) * 512 + 1 * q.val = q.val; omega
  · show V c main_arg3 (((cfg0.win 1).blk t).view.emb (ix2 q n)) = V c main_arg3 (ix2 q n)
    refine congrArg (V c main_arg3) (funext fun a => Fin.ext ?_)
    match a with
    | ⟨0, _⟩ => show win0_1.index t (0 : Fin 2) * 512 + 1 * q.val = q.val; omega
    | ⟨1, _⟩ => show win0_1.index t (1 : Fin 2) * 128 + 1 * n.val = n.val; omega
  · show V c main_v36 (((cfg0.win 2).blk t).view.emb (ix2 (0 : Fin 1) n)) = V c main_v36 (ix2 (0 : Fin 1) n)
    refine congrArg (V c main_v36) (funext fun a => Fin.ext ?_)
    match a with
    | ⟨0, _⟩ => show win0_2.index t (0 : Fin 2) * 1 + 1 * 0 = 0; omega
    | ⟨1, _⟩ => show win0_2.index t (1 : Fin 2) * 128 + 1 * n.val = n.val; omega
  · show V c main_arg5 (((cfg0.win 3).blk t).view.emb (ix2 n (j 1))) = V c main_arg5 (ix2 n ((((cfg0.win 4).blk t).view.emb j) 1))
    refine congrArg (V c main_arg5) (funext fun a => Fin.ext ?_)
    match a with
    | ⟨0, _⟩ => show win0_3.index t (0 : Fin 2) * 128 + 1 * n.val = n.val; omega
    | ⟨1, _⟩ => show win0_3.index t (1 : Fin 2) * 256 + 1 * (j 1).val = win0_4.index t (1 : Fin 2) * 256 + 1 * (j 1).val; omega

/-- Row r of the output lies in the block of point r / 1000. -/
theorem covered (i : S50000x256.Idx) : ∃ t : Fin cfg0.N, (cfg0.win 4).flush t = true ∧ i ∈ ((cfg0.win 4).blk t).view.set := by
  have h0 : (i 0).val < 50000 := (i 0).isLt
  have h1 : (i 1).val < 256 := (i 1).isLt
  have hN : cfg0.N = 50 := N_0
  have hlt : (i 0).val / 1000 < cfg0.N := by rw [hN]; omega
  refine ⟨⟨(i 0).val / 1000, hlt⟩, flush0_4 _, ?_⟩
  obtain ⟨-, -, -, -, -, -, -, -, e8, e9⟩ := blocks ⟨(i 0).val / 1000, hlt⟩
  show i ∈ ((View.whole main_v37).slice (win0_4.rect ⟨(i 0).val / 1000, hlt⟩)).set
  rw [View.set_slice_whole, Rect.mem_set_unit]
  intro a
  match a with
  | ⟨0, _⟩ =>
    show win0_4.index ⟨(i 0).val / 1000, hlt⟩ (0 : Fin 2) * 1000 ≤ (i 0).val ∧ (i 0).val < win0_4.index ⟨(i 0).val / 1000, hlt⟩ (0 : Fin 2) * 1000 + 1000
    rw [e8]; dsimp only; omega
  | ⟨1, _⟩ =>
    show win0_4.index ⟨(i 0).val / 1000, hlt⟩ (1 : Fin 2) * 256 ≤ (i 1).val ∧ (i 1).val < win0_4.index ⟨(i 0).val / 1000, hlt⟩ (1 : Fin 2) * 256 + 256
    rw [e9]; omega

/-- The output array after the region: the whole chained product of the four arrays the region is entered with. -/
theorem array_eq (c : Dev nD) :
    (dat0 V c).arrAt 4 cfg0.N
      = chain (M := 50000) (K := 512) (H := 128) (N := 256) (V c main_arg1) (V c main_arg3) (V c main_v36) (V c main_arg5) :=
  (dat0 V c).arrAt_eq_of_cover 4 _ (fun t _ => flushed_eq V c t) covered

end Cert.KernelIdeal.FusedRows

end
-- ==== Proof.RowsProduct.lean ====
/-
  The second pipelined product, h · W with h of 50000 rows of 256 features and W of 256×128, computed 1000 rows at
  a time over 50 grid points: the array it leaves is the whole product.

  Point t loads rows 1000t … 1000t + 999 of h and all of W, multiplies them into a zero accumulator and writes the
  1000×128 result back as the same rows of the output. An entry of a product depends on one row of the left operand,
  so what point t writes is rows 1000t … of the whole product; the 50 row blocks tile the 50000 rows, so the output
  array ends as the whole product. Stated for ANY contents `V` the region is entered with.
-/
import proofs.«115442_j20289425506515_1_alg».proof.Proof.Gen.KernelIdeal.Frame
import proofs.«115442_j20289425506515_1_alg».proof.Proof.LibWholeProduct
import proofs.«115442_j20289425506515_1_alg».proof.Proof.LibDenseLayer
import Idealize.ShloMosaic.Lib.Pipeline.Value
import Idealize.ShloMosaic.Lib.ValueIdx

set_option maxRecDepth 16384

noncomputable section

open scoped BigOperators

namespace Cert.KernelIdeal.RowsProduct

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.Product Cert.DenseLayer Cert.PlainDot

variable (V : (c : Dev nD) → (b : Ref sig .tc) → Buf (Elt Ideal) ((c : Thread nD τ).loc b))

theorem hz : (![0, 0] : Fin 2 → Nat) = fun _ => 0 := funext fun a => by fin_cases a <;> rfl

/-- The body's dimension numbers are those of a plain product. -/
theorem plain : IsPlain dot_S1000x256_S256x128_S1000x128_1_0_0_1_n_n := ⟨rfl, rfl, rfl, rfl, rfl, rfl⟩

/-- What the body stores is the product of its two loaded blocks. -/
theorem stored_eq (x : Vec Ideal S1000x256 .f32) (w : Vec Ideal S256x128 .f32) :
    k1_pay1 x w = mm (M := 1000) (K := 256) (N := 128) x w := by
  unfold k1_pay1
  dsimp only
  rw [shapeCast_self]
  exact matmul_zero_eq plain none _ _

/-- The index maps over the grid: the left operand's and the output's row block is the point's number, everything
    else is block 0. -/
theorem blocks : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is rows 1000t … of the whole product of the arrays the region is entered with. -/
theorem flushed_eq (c : Dev nD) (t : Fin cfg1.N) :
    (dat1 V c).flushed 2 t
      = ((cfg1.win 2).blk t).view.read (Elt Ideal) (mm (M := 50000) (K := 256) (N := 128) (V c main_v54) (V c main_arg7)) := by
  show (cfg1.win 2).cut (grid1.coords t) ((dat1 V c).after 2 t) = _
  rw [after1_2]
  unfold out1_2
  rw [View.canon_unit_zero hz]
  simp only [View.ld_unit_zero (S := S1000x256) hz, View.ld_unit_zero (S := S256x128) hz]
  rw [stored_eq]
  obtain ⟨e0, e1, e2, e3, e4, e5⟩ := blocks t
  funext j
  show mm (M := 1000) (K := 256) (N := 128) (iblk1 V c 0 t) (iblk1 V c 1 t) j
    = mm (M := 50000) (K := 256) (N := 128) (V c main_v54) (V c main_arg7) (((cfg1.win 2).blk t).view.emb j)
  refine mm_eq_of_row_col _ _ _ _ _ _ (fun q => ?_) (fun q => ?_)
  · show V c main_v54 (((cfg1.win 0).blk t).view.emb (ix2 (j 0) q)) = V c main_v54 (ix2 ((((cfg1.win 2).blk t).view.emb j) 0) q)
    refine congrArg (V c main_v54) (funext fun a => Fin.ext ?_)
    match a with
    | ⟨0, _⟩ => show win1_0.index t (0 : Fin 2) * 1000 + 1 * (j 0).val = win1_2.index t (0 : Fin 2) * 1000 + 1 * (j 0).val; omega
    | ⟨1, _⟩ => show win1_0.index t (1 : Fin 2) * 256 + 1 * q.val = q.val; omega
  · show V c main_arg7 (((cfg1.win 1).blk t).view.emb (ix2 q (j 1))) = V c main_arg7 (ix2 q ((((cfg1.win 2).blk t).view.emb j) 1))
    refine congrArg (V c main_arg7) (funext fun a => Fin.ext ?_)
    match a with
    | ⟨0, _⟩ => show win1_1.index t (0 : Fin 2) * 256 + 1 * q.val = q.val; omega
    | ⟨1, _⟩ => show win1_1.index t (1 : Fin 2) * 128 + 1 * (j 1).val = win1_2.index t (1 : Fin 2) * 128 + 1 * (j 1).val; omega

/-- Row r of the output lies in the block of point r / 1000. -/
theorem covered (i : S50000x128.Idx) : ∃ t : Fin cfg1.N, (cfg1.win 2).flush t = true ∧ i ∈ ((cfg1.win 2).blk t).view.set := by
  have h0 : (i 0).val < 50000 := (i 0).isLt
  have h1 : (i 1).val < 128 := (i 1).isLt
  have hN : cfg1.N = 50 := N_1
  have hlt : (i 0).val / 1000 < cfg1.N := by rw [hN]; omega
  refine ⟨⟨(i 0).val / 1000, hlt⟩, flush1_2 _, ?_⟩
  obtain ⟨-, -, -, -, e4, e5⟩ := blocks ⟨(i 0).val / 1000, hlt⟩
  show i ∈ ((View.whole main_v55).slice (win1_2.rect ⟨(i 0).val / 1000, hlt⟩)).set
  rw [View.set_slice_whole, Rect.mem_set_unit]
  intro a
  match a with
  | ⟨0, _⟩ =>
    show win1_2.index ⟨(i 0).val / 1000, hlt⟩ (0 : Fin 2) * 1000 ≤ (i 0).val ∧ (i 0).val < win1_2.index ⟨(i 0).val / 1000, hlt⟩ (0 : Fin 2) * 1000 + 1000
    rw [e4]; dsimp only; omega
  | ⟨1, _⟩ =>
    show win1_2.index ⟨(i 0).val / 1000, hlt⟩ (1 : Fin 2) * 128 ≤ (i 1).val ∧ (i 1).val < win1_2.index ⟨(i 0).val / 1000, hlt⟩ (1 : Fin 2) * 128 + 128
    rw [e5]; omega

/-- The output array after the region: the whole product of the two arrays the region is entered with. -/
theorem array_eq (c : Dev nD) :
    (dat1 V c).arrAt 2 cfg1.N = mm (M := 50000) (K := 256) (N := 128) (V c main_v54) (V c main_arg7) :=
  (dat1 V c).arrAt_eq_of_cover 2 _ (fun t _ => flushed_eq V c t) covered

end Cert.KernelIdeal.RowsProduct

end
-- ==== Proof.LibSplitHead.lean ====
/-
  An edge read-out on the extended reals, computed two ways.

  An edge e carries a source row zs[e, ·] and a target row zd[e, ·] of H features each; with a weight column w of 2H
  entries and a bias b its read-out is  σ(Σ_k zs[e,k]·w[k] + Σ_k zd[e,k]·w[H+k] + b),  σ x = 1 / (1 + e^(-x)).
  One way (`head`) multiplies the two rows against the two halves of the column separately and adds the two sums;
  the other joins the two rows into one of length 2H and multiplies once against the whole column. A finite sum is
  the sum of its first H terms plus the sum of its last H terms in any additive commutative monoid, so the two agree
  on every extended real, the infinities included. σ applied as one operation and σ spelt as negate, exponential,
  add one, reciprocal are one function of the argument.

  * `head_congr`: entry e depends on row e of the two feature arrays only (a block of rows gives that block of
    read-outs);
  * `head_unit`: two products into zero accumulators, added, plus the 1×1 bias repeated down the rows, then σ as one
    operation, is `head` as a whole array (any operand formats);
  * `head_host`: the product of the joined rows with the whole column, plus the bias broadcast to a row and down the
    rows, then σ spelt out, is `head` of the two halves of the column as a whole array.
  Any extents; no program needed.
-/
import Idealize.ShloMosaic.PureOps.Ideal.Laws
import Idealize.ShloMosaic.Lib.ValueIdx
import Idealize.ShloMosaic.Lib.ValueLayout
import Idealize.ShloMosaic.Lib.Pipeline.Value
import proofs.«115442_j20289425506515_1_alg».proof.Proof.LibPlainDot
import proofs.«115442_j20289425506515_1_alg».proof.Proof.LibWholeProduct
import proofs.«115442_j20289425506515_1_alg».proof.Proof.LibDenseLayer
import proofs.«115442_j20289425506515_1_alg».proof.Proof.LibBroadcast

noncomputable section

open scoped BigOperators

namespace Cert.SplitHead

open Idealize.ShloMosaic Idealize.ShloMosaic.ValueIdx Cert.DenseLayer Cert.Product Cert.PlainDot

/-- The float word of 1.0 is the real number 1. -/
theorem ofBits_one : Ideal.ofBits .f32 0x3F800000#32 = 1 := by
  simp [Ideal.ofBits, Ideal.ieee, -EReal.coe_mul]; norm_num

/-- σ as one operation, lane by lane. -/
theorem logistic_apply {s : Shape} {φ : FTy} (a : FVec Ideal s φ) (i : s.Idx) : logistic a i = Ideal.logistic (a i) := rfl

/-- The host's quotient, exponential and negation, lane by lane. -/
theorem hostDivf_apply {s : Shape} {φ : FTy} (a b : FVec Ideal s φ) (i : s.Idx) : Host.divf a b i = Ideal.div (a i) (b i) := rfl
theorem hostExp_apply {s : Shape} {φ : FTy} (a : FVec Ideal s φ) (i : s.Idx) : Host.exp a i = Ideal.exp (a i) := rfl
theorem hostNegf_apply {s : Shape} {φ : FTy} (a : FVec Ideal s φ) (i : s.Idx) : Host.negf a i = -(a i) := rfl

/-- The read-out of every edge: σ of the two half products' sum plus the bias. -/
def head {E H : Nat} (zs zd : Mat E H) (ws wd : Mat H 1) (b : Mat 1 1) : Mat E 1 :=
  fun i => Ideal.logistic ((mm zs ws i + mm zd wd i) + b (ix2 (0 : Fin 1) (i 1)))

theorem head_apply {E H : Nat} (zs zd : Mat E H) (ws wd : Mat H 1) (b : Mat 1 1) (e : Fin E) (u : Fin 1) :
    head zs zd ws wd b (ix2 e u)
      = Ideal.logistic (((∑ q : Fin H, zs (ix2 e q) * ws (ix2 q u)) + ∑ q : Fin H, zd (ix2 e q) * wd (ix2 q u)) + b (ix2 (0 : Fin 1) u)) := rfl

/-- Edge e's read-out depends on row e of the source features, row e of the target features, the two weight columns
    and the bias: two heads whose operands agree there agree at the edge, whatever the number of edges. -/
theorem head_congr {E E' H : Nat} (zs zd : Mat E H) (zs' zd' : Mat E' H) (ws wd ws' wd' : Mat H 1) (b b' : Mat 1 1)
    (i : (⟨2, ![E, 1]⟩ : Shape).Idx) (i' : (⟨2, ![E', 1]⟩ : Shape).Idx)
    (hs : ∀ q : Fin H, zs (ix2 (i 0) q) = zs' (ix2 (i' 0) q)) (hd : ∀ q : Fin H, zd (ix2 (i 0) q) = zd' (ix2 (i' 0) q))
    (hws : ∀ (q : Fin H) (u : Fin 1), ws (ix2 q u) = ws' (ix2 q u)) (hwd : ∀ (q : Fin H) (u : Fin 1), wd (ix2 q u) = wd' (ix2 q u))
    (hb : ∀ u : Fin 1, b (ix2 (0 : Fin 1) u) = b' (ix2 (0 : Fin 1) u)) :
    head zs zd ws wd b i = head zs' zd' ws' wd' b' i' := by
  -- the one column
  have h11 : (i 1 : Fin 1) = (i' 1 : Fin 1) := Fin.ext (by
    have h : (i 1).val < 1 := (i 1).isLt
    have h' : (i' 1).val < 1 := (i' 1).isLt
    omega)
  unfold head
  rw [mm_eq_of_row_col zs ws zs' ws' i i' hs (fun q => (hws q (i 1)).trans (by rw [h11])),
    mm_eq_of_row_col zd wd zd' wd' i i' hd (fun q => (hwd q (i 1)).trans (by rw [h11])), hb (i 1), h11]

/-- Two products into zero accumulators, added, plus the bias repeated down the rows, then σ: `head`. -/
theorem head_unit {M H : Nat} {d : DotDims ⟨2, ![M, H]⟩ ⟨2, ![H, 1]⟩ ⟨2, ![M, 1]⟩} (hd : IsPlain d)
    (prec : Option ContractPrecision) {φ₁ φ₂ φ₃ φ₄ : FTy}
    (zs : FVec Ideal ⟨2, ![M, H]⟩ φ₁) (ws : FVec Ideal ⟨2, ![H, 1]⟩ φ₂)
    (zd : FVec Ideal ⟨2, ![M, H]⟩ φ₃) (wd : FVec Ideal ⟨2, ![H, 1]⟩ φ₄) (b : FVec Ideal ⟨2, ![1, 1]⟩ .f32)
    (hb : (⟨2, ![1, 1]⟩ : Shape).Broadcasts ⟨2, ![M, 1]⟩) :
    logistic (addf (addf (matmul d prec zs ws (constant ⟨2, ![M, 1]⟩ .f32 0x00000000#32))
        (matmul d prec zd wd (constant ⟨2, ![M, 1]⟩ .f32 0x00000000#32))) (broadcastTo ⟨2, ![M, 1]⟩ b hb))
      = head zs zd ws wd b := by
  funext j
  obtain ⟨p, u, rfl⟩ : ∃ (p : Fin M) (u : Fin 1), j = ix2 p u := ⟨j 0, j 1, eq_ix2 j⟩
  rw [logistic_apply, addf_apply, addf_apply, matmul_zero_apply hd, matmul_zero_apply hd, broadcastTo_1b_ab_apply, head_apply]

/-- A sum over 2H terms is the sum over the first H plus the sum over the last H. -/
theorem sum_halves {H : Nat} (f : Fin (H + H) → EReal) :
    ∑ q : Fin (H + H), f q = (∑ q : Fin H, f (Fin.castAdd H q)) + ∑ q : Fin H, f (Fin.natAdd H q) :=
  Fin.sum_univ_add f

/-- The joined rows against the whole column, plus the bias, then σ spelt out: `head` of the column's two halves. -/
theorem head_host {E H : Nat} {d : DotDims ⟨2, ![E, H + H]⟩ ⟨2, ![H + H, 1]⟩ ⟨2, ![E, 1]⟩} (hd : IsPlain d)
    (prec : Option ContractPrecision)
    (zs zd : FVec Ideal ⟨2, ![E, H]⟩ .f32) (w : FVec Ideal ⟨2, ![H + H, 1]⟩ .f32) (b : FVec Ideal ⟨1, ![1]⟩ .f32)
    (hc : Shape.Concatenates [(⟨2, ![E, H]⟩ : Shape), ⟨2, ![E, H]⟩] ⟨2, ![E, H + H]⟩ 1)
    (s0 : (⟨2, ![H + H, 1]⟩ : Shape).Slices ![0, 0] ⟨2, ![H, 1]⟩)
    (s1 : (⟨2, ![H + H, 1]⟩ : Shape).Slices ![H, 0] ⟨2, ![H, 1]⟩)
    (h1 : (⟨1, ![1]⟩ : Shape).BroadcastsInDim ⟨2, ![1, 1]⟩ ![1])
    (h2 : (⟨2, ![1, 1]⟩ : Shape).BroadcastsInDim ⟨2, ![E, 1]⟩ ![0, 1])
    (g0 g0' : (⟨0, ![]⟩ : Shape).BroadcastsInDim ⟨2, ![E, 1]⟩ ![]) :
    Host.divf (broadcastInDim ⟨2, ![E, 1]⟩ ![] g0 (constant (F := Ideal) ⟨0, ![]⟩ .f32 0x3F800000#32))
        (addf (broadcastInDim ⟨2, ![E, 1]⟩ ![] g0' (constant (F := Ideal) ⟨0, ![]⟩ .f32 0x3F800000#32))
          (Host.exp (Host.negf (addf
            (Host.dotGeneral d prec (concatenate ⟨2, ![E, H + H]⟩ 1 [⟨⟨2, ![E, H]⟩, zs⟩, ⟨⟨2, ![E, H]⟩, zd⟩] hc) w)
            (broadcastInDim ⟨2, ![E, 1]⟩ ![0, 1] h2 (broadcastInDim ⟨2, ![1, 1]⟩ ![1] h1 b))))))
      = head zs zd (extractStridedSlice ⟨2, ![H, 1]⟩ ![0, 0] w s0) (extractStridedSlice ⟨2, ![H, 1]⟩ ![H, 0] w s1) (row b) := by
  funext j
  obtain ⟨e, u, rfl⟩ : ∃ (e : Fin E) (u : Fin 1), j = ix2 e u := ⟨j 0, j 1, eq_ix2 j⟩
  obtain rfl : u = 0 := Subsingleton.elim _ _
  obtain rfl : g0' = g0 := rfl
  simp only [hostDivf_apply, addf_apply, hostExp_apply, hostNegf_apply]
  rw [Cert.Bcast.scalar_apply, constant_apply, ofBits_one, dotGeneral_apply hd, head_apply, sum_halves]
  -- the bias: a length-1 vector broadcast to a 1×1 row and down the rows
  have hbias : broadcastInDim ⟨2, ![E, 1]⟩ ![0, 1] h2 (broadcastInDim ⟨2, ![1, 1]⟩ ![1] h1 b) (ix2 e (0 : Fin 1))
      = row b (ix2 (0 : Fin 1) (0 : Fin 1)) :=
    (broadcastInDim_apply ![0, 1] h2 _ (ix2 e (0 : Fin 1)) (ix2 (0 : Fin 1) (0 : Fin 1)) (fun a => by
      match a with
      | ⟨0, _⟩ =>
        show (0 : ℕ) = if (1 : ℕ) = 1 then 0 else e.val
        rw [if_pos rfl]
      | ⟨1, _⟩ =>
        show (0 : ℕ) = if (1 : ℕ) = 1 then 0 else 0
        rw [if_pos rfl])).trans
    (broadcastInDim_apply ![1] h1 b (ix2 (0 : Fin 1) (0 : Fin 1)) (ix1 (0 : Fin 1)) (fun a => by
      match a with
      | ⟨0, _⟩ =>
        show (0 : ℕ) = if (1 : ℕ) = 1 then 0 else 0
        rw [if_pos rfl]))
  rw [hbias]
  -- the first H joined entries are the source row against the column's first half
  have hl : ∀ q : Fin H,
      concatenate ⟨2, ![E, H + H]⟩ 1 [⟨⟨2, ![E, H]⟩, zs⟩, ⟨⟨2, ![E, H]⟩, zd⟩] hc (ix2 e (Fin.castAdd H q)) * w (ix2 (Fin.castAdd H q) (0 : Fin 1))
        = zs (ix2 e q) * extractStridedSlice ⟨2, ![H, 1]⟩ ![0, 0] w s0 (ix2 q (0 : Fin 1)) := fun q => by
    rw [concatenate_pair_apply_left (1 : Fin 2) zs zd hc (ix2 e (Fin.castAdd H q)) rfl (ix2 e q) (fun a => by
          match a with
          | ⟨0, _⟩ => rfl
          | ⟨1, _⟩ => rfl),
      extractStridedSlice_apply ![0, 0] w s0 (ix2 q (0 : Fin 1)) (ix2 (Fin.castAdd H q) (0 : Fin 1)) (fun a => by
          match a with
          | ⟨0, _⟩ => show q.val = 0 + q.val; omega
          | ⟨1, _⟩ => rfl)]
  -- the last H are the target row against its second half
  have hr : ∀ q : Fin H,
      concatenate ⟨2, ![E, H + H]⟩ 1 [⟨⟨2, ![E, H]⟩, zs⟩, ⟨⟨2, ![E, H]⟩, zd⟩] hc (ix2 e (Fin.natAdd H q)) * w (ix2 (Fin.natAdd H q) (0 : Fin 1))
        = zd (ix2 e q) * extractStridedSlice ⟨2, ![H, 1]⟩ ![H, 0] w s1 (ix2 q (0 : Fin 1)) := fun q => by
    rw [concatenate_pair_apply_right (1 : Fin 2) zs zd hc (ix2 e (Fin.natAdd H q)) rfl rfl (ix2 e q) (fun a ha => by
          match a, ha with
          | ⟨0, _⟩, _ => rfl
          | ⟨1, _⟩, ha => exact absurd rfl ha) (by show q.val + H = H + q.val; omega),
      extractStridedSlice_apply ![H, 0] w s1 (ix2 q (0 : Fin 1)) (ix2 (Fin.natAdd H q) (0 : Fin 1)) (fun a => by
          match a with
          | ⟨0, _⟩ => rfl
          | ⟨1, _⟩ => rfl)]
  simp only [hl, hr]
  rfl

end Cert.SplitHead

end
-- ==== Proof.EdgeRows.lean ====
/-
  The third pipelined call, the edge read-out σ(zs · ws + zd · wd + b) over 800000 edges with 128 features on each
  side, computed 8000 edges at a time over 100 grid points: the array it leaves is the whole read-out.

  Point t loads rows 8000t … 8000t + 7999 of the source features zs and of the target features zd, and all of the two
  128×1 weight columns and the 1×1 bias; it multiplies each feature block against its column (into zero
  accumulators), adds the two, adds the bias, applies σ and writes the 8000×1 result back as the same rows of the
  output. Edge e's read-out depends on row e of zs and row e of zd only, so what point t writes is rows 8000t … of
  the whole read-out; the 100 row blocks tile the 800000 rows. Stated for ANY contents `V` the region is entered with.
-/
import proofs.«115442_j20289425506515_1_alg».proof.Proof.Gen.KernelIdeal.Frame
import proofs.«115442_j20289425506515_1_alg».proof.Proof.LibWholeProduct
import proofs.«115442_j20289425506515_1_alg».proof.Proof.LibDenseLayer
import proofs.«115442_j20289425506515_1_alg».proof.Proof.LibSplitHead
import Idealize.ShloMosaic.Lib.Pipeline.Value
import Idealize.ShloMosaic.Lib.ValueIdx

set_option maxRecDepth 16384

noncomputable section

open scoped BigOperators

namespace Cert.KernelIdeal.EdgeRows

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.Product Cert.DenseLayer Cert.PlainDot Cert.SplitHead

variable (V : (c : Dev nD) → (b : Ref sig .tc) → Buf (Elt Ideal) ((c : Thread nD τ).loc b))

theorem hz : (![0, 0] : Fin 2 → Nat) = fun _ => 0 := funext fun a => by fin_cases a <;> rfl

/-- The body's two products have the dimension numbers of a plain product. -/
theorem plain : IsPlain dot_S8000x128_S128x1_S8000x1_1_0_0_1_n_n := ⟨rfl, rfl, rfl, rfl, rfl, rfl⟩

/-- What the body stores is the read-out of its five loaded blocks. -/
theorem stored_eq (zs zd : Vec Ideal S8000x128 .f32) (ws wd : Vec Ideal S128x1 .f32) (b : Vec Ideal S1x1 .f32) :
    k2_pay1 zs zd ws wd b = head (E := 8000) (H := 128) zs zd ws wd b := by
  unfold k2_pay1
  dsimp only
  simp only [shapeCast_self]
  exact head_unit plain none _ _ _ _ _ _

/-- The index maps over the grid: the two feature windows' and the output's row block is the point's number,
    everything else is block 0. -/
theorem blocks : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point t writes back is rows 8000t … of the whole read-out of the arrays the region is entered with. -/
theorem flushed_eq (c : Dev nD) (t : Fin cfg2.N) :
    (dat2 V c).flushed 5 t
      = ((cfg2.win 5).blk t).view.read (Elt Ideal)
          (head (E := 800000) (H := 128) (V c main_v78) (V c main_v85) (V c main_v86) (V c main_v87) (V c main_v88)) := by
  show (cfg2.win 5).cut (grid2.coords t) ((dat2 V c).after 5 t) = _
  rw [after2_5]
  unfold out2_5
  rw [View.canon_unit_zero hz]
  simp only [View.ld_unit_zero (S := S8000x128) hz, View.ld_unit_zero (S := S128x1) hz, View.ld_unit_zero (S := S1x1) hz]
  rw [stored_eq]
  obtain ⟨e0, e1, e2, e3, e4, e5, e6, e7, e8, e9, e10, e11⟩ := blocks t
  funext j
  show head (E := 8000) (H := 128) (iblk2 V c 0 t) (iblk2 V c 1 t) (iblk2 V c 2 t) (iblk2 V c 3 t) (iblk2 V c 4 t) j
    = head (E := 800000) (H := 128) (V c main_v78) (V c main_v85) (V c main_v86) (V c main_v87) (V c main_v88)
        (((cfg2.win 5).blk t).view.emb j)
  refine head_congr _ _ _ _ _ _ _ _ _ _ _ _ (fun q => ?_) (fun q => ?_) (fun q u => ?_) (fun q u => ?_) (fun u => ?_)
  · show V c main_v78 (((cfg2.win 0).blk t).view.emb (ix2 (j 0) q)) = V c main_v78 (ix2 ((((cfg2.win 5).blk t).view.emb j) 0) q)
    refine congrArg (V c main_v78) (funext fun a => Fin.ext ?_)
    match a with
    | ⟨0, _⟩ => show win2_0.index t (0 : Fin 2) * 8000 + 1 * (j 0).val = win2_5.index t (0 : Fin 2) * 8000 + 1 * (j 0).val; omega
    | ⟨1, _⟩ => show win2_0.index t (1 : Fin 2) * 128 + 1 * q.val = q.val; omega
  · show V c main_v85 (((cfg2.win 1).blk t).view.emb (ix2 (j 0) q)) = V c main_v85 (ix2 ((((cfg2.win 5).blk t).view.emb j) 0) q)
    refine congrArg (V c main_v85) (funext fun a => Fin.ext ?_)
    match a with
    | ⟨0, _⟩ => show win2_1.index t (0 : Fin 2) * 8000 + 1 * (j 0).val = win2_5.index t (0 : Fin 2) * 8000 + 1 * (j 0).val; omega
    | ⟨1, _⟩ => show win2_1.index t (1 : Fin 2) * 128 + 1 * q.val = q.val; omega
  · show V c main_v86 (((cfg2.win 2).blk t).view.emb (ix2 q u)) = V c main_v86 (ix2 q u)
    refine congrArg (V c main_v86) (funext fun a => Fin.ext ?_)
    match a with
    | ⟨0, _⟩ => show win2_2.index t (0 : Fin 2) * 128 + 1 * q.val = q.val; omega
    | ⟨1, _⟩ => show win2_2.index t (1 : Fin 2) * 1 + 1 * u.val = u.val; omega
  · show V c main_v87 (((cfg2.win 3).blk t).view.emb (ix2 q u)) = V c main_v87 (ix2 q u)
    refine congrArg (V c main_v87) (funext fun a => Fin.ext ?_)
    match a with
    | ⟨0, _⟩ => show win2_3.index t (0 : Fin 2) * 128 + 1 * q.val = q.val; omega
    | ⟨1, _⟩ => show win2_3.index t (1 : Fin 2) * 1 + 1 * u.val = u.val; omega
  · show V c main_v88 (((cfg2.win 4).blk t).view.emb (ix2 (0 : Fin 1) u)) = V c main_v88 (ix2 (0 : Fin 1) u)
    refine congrArg (V c main_v88) (funext fun a => Fin.ext ?_)
    match a with
    | ⟨0, _⟩ => show win2_4.index t (0 : Fin 2) * 1 + 1 * 0 = 0; omega
    | ⟨1, _⟩ => show win2_4.index t (1 : Fin 2) * 1 + 1 * u.val = u.val; omega

/-- Edge r of the output lies in the block of point r / 8000. -/
theorem covered (i : S800000x1.Idx) : ∃ t : Fin cfg2.N, (cfg2.win 5).flush t = true ∧ i ∈ ((cfg2.win 5).blk t).view.set := by
  have h0 : (i 0).val < 800000 := (i 0).isLt
  have h1 : (i 1).val < 1 := (i 1).isLt
  have hN : cfg2.N = 100 := N_2
  have hlt : (i 0).val / 8000 < cfg2.N := by rw [hN]; omega
  refine ⟨⟨(i 0).val / 8000, hlt⟩, flush2_5 _, ?_⟩
  obtain ⟨-, -, -, -, -, -, -, -, -, -, e10, e11⟩ := blocks ⟨(i 0).val / 8000, hlt⟩
  show i ∈ ((View.whole main_v89).slice (win2_5.rect ⟨(i 0).val / 8000, hlt⟩)).set
  rw [View.set_slice_whole, Rect.mem_set_unit]
  intro a
  match a with
  | ⟨0, _⟩ =>
    show win2_5.index ⟨(i 0).val / 8000, hlt⟩ (0 : Fin 2) * 8000 ≤ (i 0).val ∧ (i 0).val < win2_5.index ⟨(i 0).val / 8000, hlt⟩ (0 : Fin 2) * 8000 + 8000
    rw [e10]; dsimp only; omega
  | ⟨1, _⟩ =>
    show win2_5.index ⟨(i 0).val / 8000, hlt⟩ (1 : Fin 2) * 1 ≤ (i 1).val ∧ (i 1).val < win2_5.index ⟨(i 0).val / 8000, hlt⟩ (1 : Fin 2) * 1 + 1
    rw [e11]; omega

/-- The output array after the region: the whole read-out of the five arrays the region is entered with. -/
theorem array_eq (c : Dev nD) :
    (dat2 V c).arrAt 5 cfg2.N
      = head (E := 800000) (H := 128) (V c main_v78) (V c main_v85) (V c main_v86) (V c main_v87) (V c main_v88) :=
  (dat2 V c).arrAt_eq_of_cover 5 _ (fun t _ => flushed_eq V c t) covered

end Cert.KernelIdeal.EdgeRows

end
-- ==== Proof.LibHostWalk.lean ====
/-
  Reading a buffer through a straight line of host operations: each operation's result at its own result buffer is
  its function of its operands' contents, and any other buffer keeps what it held. One pass rewrites a read at the end
  of the line into the composed term of the contents the line started from. A two-piece concatenation is restated
  with its two pieces as plain arguments, so that the pass also rewrites the reads inside the pieces.
-/
import Idealize.ShloMosaic.Lib.StableHlo.Run

set_option maxRecDepth 16384

noncomputable section

namespace Cert.HostWalk

open Idealize.ShloMosaic Idealize.ShloMosaic.StableHlo

/-- The concatenation of two pieces along an axis, the pieces as arguments. -/
def cat2 {α : Type} (t : Shape) (a : Fin t.rank) (s₁ s₂ : Shape) (x₁ : s₁.Idx → α) (x₂ : s₂.Idx → α)
    (h : Shape.Concatenates [s₁, s₂] t a) : t.Idx → α :=
  concatenate t a [⟨s₁, x₁⟩, ⟨s₂, x₂⟩] h

theorem concatenate_pair {α : Type} (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = cat2 t a s₁ s₂ x₁ x₂ h := rfl

/-- Reads a buffer through the fold of a line of host operations (and through whatever further rewriting rules are
    given for the boundaries between lines). -/
macro "walk_back" "[" ls:Lean.Parser.Tactic.simpLemma,* "]" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.nullary, TRef.unary, TRef.binary, TRef.ternary, TRef.quaternary, TRef.reshape, TRef.toBuf, TRef.ofBuf, TRef.of, cast_eq,
      concatenate_pair, $ls,*]))

end Cert.HostWalk

end
-- ==== Proof.HostGroups.lean ====
/-
  The host operations between the pipelined calls, read at the buffers that matter.

  @main's host operations fall into four groups: the ones before the first call (the edge list split into sources
  and targets and extended by the self loops, the extended edge weights, the degree, its inverse square root, the
  per-edge normaliser, and the first bias laid out as a row); the first aggregation with its bias and rectifier,
  between the first and the second call; the second aggregation with its bias, the two gathers of the embedding at
  the edges' end points, the two halves of the read-out column and the read-out bias as a 1×1 array, between the
  second and the third call; and the closing reshape. Each group is read here from ANY contents `W` it starts
  from: the value a later part of the program reads is the corresponding stage of the reference applied to what
  `W` holds — the same operations on the same arrays —, and a buffer the group does not write keeps its contents.
-/
import proofs.«115442_j20289425506515_1_alg».proof.Proof.Gen.KernelIdeal.Frame
import proofs.«115442_j20289425506515_1_alg».proof.Proof.Gen.ReferenceIdeal.Read
import proofs.«115442_j20289425506515_1_alg».proof.Proof.LibHostWalk

set_option maxRecDepth 16384

noncomputable section

namespace Cert.KernelIdeal.HostGroups

open Cert.KernelIdeal Cert.KernelIdeal.Gen Idealize.ShloMosaic Idealize.ShloMosaic.TcCoe Idealize.ShloMosaic.StableHlo
open Cert.ReferenceIdeal.Read Cert.HostWalk

variable (W : Valuation τ sig (Elt Ideal))

/-! ## Before the first call -/

/-- The contents after the five stretches that precede the first call. -/
def opened : Valuation τ sig (Elt Ideal) :=
  after hostOps0_4 (after hostOps0_3 (after hostOps0_2 (after hostOps0_1 (after hostOps0 W))))

/-- The edges' sources. -/
theorem opened_src : opened W (Proc.devRef .tc main_v1) = val_main_v1 (F := Ideal) (W (Proc.devRef .tc main_arg0)) := by
  unfold opened
  walk_back []
  rfl
/-- The edges' targets. -/
theorem opened_dst : opened W (Proc.devRef .tc main_v3) = val_main_v3 (F := Ideal) (W (Proc.devRef .tc main_arg0)) := by
  unfold opened
  walk_back []
  rfl
/-- Sources, then one self loop per node. -/
theorem opened_sources : opened W (Proc.devRef .tc main_v5) = val_main_v9 (F := Ideal) (W (Proc.devRef .tc main_arg0)) := by
  unfold opened
  walk_back []
  rfl
/-- Targets, then one self loop per node. -/
theorem opened_targets : opened W (Proc.devRef .tc main_v6) = val_main_v10 (F := Ideal) (W (Proc.devRef .tc main_arg0)) := by
  unfold opened
  walk_back []
  rfl
/-- The per-edge normaliser dinv[source] · weight · dinv[target]. -/
theorem opened_normaliser :
    opened W (Proc.devRef .tc main_v35) = val_main_v39 (F := Ideal) (W (Proc.devRef .tc main_arg0)) (W (Proc.devRef .tc main_arg2)) := by
  unfold opened
  walk_back []
  rfl
/-- The first bias laid out as a 1×128 array. -/
theorem opened_bias :
    opened W (Proc.devRef .tc main_v36) = shapeCast S1x128 (W (Proc.devRef .tc main_arg4)) shapeCasts_S128_S1x128 := by
  unfold opened
  walk_back []
  rfl
theorem opened_keeps_arg1 : opened W (Proc.devRef .tc main_arg1) = W (Proc.devRef .tc main_arg1) := by
  unfold opened
  walk_back []
theorem opened_keeps_arg3 : opened W (Proc.devRef .tc main_arg3) = W (Proc.devRef .tc main_arg3) := by
  unfold opened
  walk_back []
theorem opened_keeps_arg5 : opened W (Proc.devRef .tc main_arg5) = W (Proc.devRef .tc main_arg5) := by
  unfold opened
  walk_back []
theorem opened_keeps_arg6 : opened W (Proc.devRef .tc main_arg6) = W (Proc.devRef .tc main_arg6) := by
  unfold opened
  walk_back []
theorem opened_keeps_arg7 : opened W (Proc.devRef .tc main_arg7) = W (Proc.devRef .tc main_arg7) := by
  unfold opened
  walk_back []
theorem opened_keeps_arg8 : opened W (Proc.devRef .tc main_arg8) = W (Proc.devRef .tc main_arg8) := by
  unfold opened
  walk_back []
theorem opened_keeps_arg9 : opened W (Proc.devRef .tc main_arg9) = W (Proc.devRef .tc main_arg9) := by
  unfold opened
  walk_back []
theorem opened_keeps_arg10 : opened W (Proc.devRef .tc main_arg10) = W (Proc.devRef .tc main_arg10) := by
  unfold opened
  walk_back []

/-! ## Between the first and the second call -/

/-- The contents after the two stretches between the first and the second call. -/
def convolved : Valuation τ sig (Elt Ideal) := after hostOps1_1 (after hostOps1 W)

/-- The rectified first convolution, when the first call's output holds the reference's product stage. -/
theorem convolved_hidden (x0 : (⟨S2x800000, .i32⟩ : BufTy).Contents (Elt Ideal)) (x1 : (⟨S50000x512, .f32⟩ : BufTy).Contents (Elt Ideal)) (x2 : (⟨S800000, .f32⟩ : BufTy).Contents (Elt Ideal)) (x3 : (⟨S512x128, .f32⟩ : BufTy).Contents (Elt Ideal)) (x4 : (⟨S128, .f32⟩ : BufTy).Contents (Elt Ideal)) (x5 : (⟨S128x256, .f32⟩ : BufTy).Contents (Elt Ideal)) (x6 : (⟨S256, .f32⟩ : BufTy).Contents (Elt Ideal))
    (h37 : W (Proc.devRef .tc main_v37) = val_main_v40 (F := Ideal) x1 x3 x4 x5)
    (h5 : W (Proc.devRef .tc main_v5) = val_main_v9 (F := Ideal) x0) (h6 : W (Proc.devRef .tc main_v6) = val_main_v10 (F := Ideal) x0)
    (h35 : W (Proc.devRef .tc main_v35) = val_main_v39 (F := Ideal) x0 x2) (hb : W (Proc.devRef .tc main_arg6) = x6) :
    convolved W (Proc.devRef .tc main_v54) = val_main_v57 (F := Ideal) x0 x1 x2 x3 x4 x5 x6 := by
  unfold convolved
  walk_back []
  rw [h37, h5, h6, h35, hb]
  rfl
theorem convolved_keeps_v1 : convolved W (Proc.devRef .tc main_v1) = W (Proc.devRef .tc main_v1) := by
  unfold convolved
  walk_back []
theorem convolved_keeps_v3 : convolved W (Proc.devRef .tc main_v3) = W (Proc.devRef .tc main_v3) := by
  unfold convolved
  walk_back []
theorem convolved_keeps_v5 : convolved W (Proc.devRef .tc main_v5) = W (Proc.devRef .tc main_v5) := by
  unfold convolved
  walk_back []
theorem convolved_keeps_v6 : convolved W (Proc.devRef .tc main_v6) = W (Proc.devRef .tc main_v6) := by
  unfold convolved
  walk_back []
theorem convolved_keeps_v35 : convolved W (Proc.devRef .tc main_v35) = W (Proc.devRef .tc main_v35) := by
  unfold convolved
  walk_back []
theorem convolved_keeps_arg7 : convolved W (Proc.devRef .tc main_arg7) = W (Proc.devRef .tc main_arg7) := by
  unfold convolved
  walk_back []
theorem convolved_keeps_arg8 : convolved W (Proc.devRef .tc main_arg8) = W (Proc.devRef .tc main_arg8) := by
  unfold convolved
  walk_back []
theorem convolved_keeps_arg9 : convolved W (Proc.devRef .tc main_arg9) = W (Proc.devRef .tc main_arg9) := by
  unfold convolved
  walk_back []
theorem convolved_keeps_arg10 : convolved W (Proc.devRef .tc main_arg10) = W (Proc.devRef .tc main_arg10) := by
  unfold convolved
  walk_back []

/-! ## Between the second and the third call -/

/-- The contents after the stretch between the second and the third call. -/
def gathered : Valuation τ sig (Elt Ideal) := after hostOps2 W

/-- The embedding at the edges' sources, when the second call's output holds the reference's product stage. -/
theorem gathered_at_sources (x0 : (⟨S2x800000, .i32⟩ : BufTy).Contents (Elt Ideal)) (x1 : (⟨S50000x512, .f32⟩ : BufTy).Contents (Elt Ideal)) (x2 : (⟨S800000, .f32⟩ : BufTy).Contents (Elt Ideal)) (x3 : (⟨S512x128, .f32⟩ : BufTy).Contents (Elt Ideal)) (x4 : (⟨S128, .f32⟩ : BufTy).Contents (Elt Ideal)) (x5 : (⟨S128x256, .f32⟩ : BufTy).Contents (Elt Ideal)) (x6 : (⟨S256, .f32⟩ : BufTy).Contents (Elt Ideal)) (x7 : (⟨S256x128, .f32⟩ : BufTy).Contents (Elt Ideal)) (x8 : (⟨S128, .f32⟩ : BufTy).Contents (Elt Ideal))
    (h55 : W (Proc.devRef .tc main_v55) = val_main_v90 (F := Ideal) x0 x1 x2 x3 x4 x5 x6 x7)
    (h5 : W (Proc.devRef .tc main_v5) = val_main_v59 (F := Ideal) x0) (h6 : W (Proc.devRef .tc main_v6) = val_main_v60 (F := Ideal) x0)
    (h35 : W (Proc.devRef .tc main_v35) = val_main_v89 (F := Ideal) x0 x2) (h1 : W (Proc.devRef .tc main_v1) = val_main_v1 (F := Ideal) x0)
    (hb : W (Proc.devRef .tc main_arg8) = x8) :
    gathered W (Proc.devRef .tc main_v78) = val_main_v113 (F := Ideal) x0 x1 x2 x3 x4 x5 x6 x7 x8 := by
  unfold gathered
  walk_back []
  rw [h55, h5, h6, h35, h1, hb]
  rfl
/-- The embedding at the edges' targets. -/
theorem gathered_at_targets (x0 : (⟨S2x800000, .i32⟩ : BufTy).Contents (Elt Ideal)) (x1 : (⟨S50000x512, .f32⟩ : BufTy).Contents (Elt Ideal)) (x2 : (⟨S800000, .f32⟩ : BufTy).Contents (Elt Ideal)) (x3 : (⟨S512x128, .f32⟩ : BufTy).Contents (Elt Ideal)) (x4 : (⟨S128, .f32⟩ : BufTy).Contents (Elt Ideal)) (x5 : (⟨S128x256, .f32⟩ : BufTy).Contents (Elt Ideal)) (x6 : (⟨S256, .f32⟩ : BufTy).Contents (Elt Ideal)) (x7 : (⟨S256x128, .f32⟩ : BufTy).Contents (Elt Ideal)) (x8 : (⟨S128, .f32⟩ : BufTy).Contents (Elt Ideal))
    (h55 : W (Proc.devRef .tc main_v55) = val_main_v90 (F := Ideal) x0 x1 x2 x3 x4 x5 x6 x7)
    (h5 : W (Proc.devRef .tc main_v5) = val_main_v59 (F := Ideal) x0) (h6 : W (Proc.devRef .tc main_v6) = val_main_v60 (F := Ideal) x0)
    (h35 : W (Proc.devRef .tc main_v35) = val_main_v89 (F := Ideal) x0 x2) (h3 : W (Proc.devRef .tc main_v3) = val_main_v3 (F := Ideal) x0)
    (hb : W (Proc.devRef .tc main_arg8) = x8) :
    gathered W (Proc.devRef .tc main_v85) = val_main_v120 (F := Ideal) x0 x1 x2 x3 x4 x5 x6 x7 x8 := by
  unfold gathered
  walk_back []
  rw [h55, h5, h6, h35, h3, hb]
  rfl
/-- The first half of the read-out column. -/
theorem gathered_first_half :
    gathered W (Proc.devRef .tc main_v86) = extractStridedSlice S128x1 ![0, 0] (W (Proc.devRef .tc main_arg9)) slices_S256x1_S128x1_0_0 := by
  unfold gathered
  walk_back []
/-- Its second half. -/
theorem gathered_second_half :
    gathered W (Proc.devRef .tc main_v87) = extractStridedSlice S128x1 ![128, 0] (W (Proc.devRef .tc main_arg9)) slices_S256x1_S128x1_128_0 := by
  unfold gathered
  walk_back []
/-- The read-out bias as a 1×1 array. -/
theorem gathered_bias :
    gathered W (Proc.devRef .tc main_v88) = shapeCast S1x1 (W (Proc.devRef .tc main_arg10)) shapeCasts_S1_S1x1 := by
  unfold gathered
  walk_back []
  rfl

/-! ## After the third call -/

/-- The result is the third call's 800000×1 output with its unit axis dropped. -/
theorem closed_result :
    after hostOps3 W (Proc.devRef .tc main_v90) = shapeCast S800000 (W (Proc.devRef .tc main_v89)) shapeCasts_S800000x1_S800000 := by
  walk_back []
  rfl

end Cert.KernelIdeal.HostGroups

end
-- ==== Proof.RefSide.lean ====
/-
  The reference, stage by stage, in the vocabulary the kernel's side is read in.

  The reference computes the graph normaliser twice, once per convolution, from the same edge list and edge weights:
  the second computation's stages are the first's (`*_again`). Its two products ahead of the first aggregation are
  the chained product (x · W1 + b1) · W2 of the bias as a row (`first_products`); its product ahead of the second
  aggregation is the plain product of the rectified first layer with W_mu (`second_product`); and its edge read-out —
  the two gathered feature arrays joined along the feature axis, one product against the whole 256×1 column, the bias,
  σ spelt as negate, exponential, add one, reciprocal — is the split read-out of the two gathered arrays against the
  two halves of the column (`read_out`).
-/
import proofs.«115442_j20289425506515_1_alg».proof.Proof.Gen.ReferenceIdeal.Read
import proofs.«115442_j20289425506515_1_alg».proof.Proof.LibWholeProduct
import proofs.«115442_j20289425506515_1_alg».proof.Proof.LibChainedProduct
import proofs.«115442_j20289425506515_1_alg».proof.Proof.LibSplitHead
import Idealize.ShloMosaic.Lib.ValueIdx
import Idealize.ShloMosaic.PureOps.Ideal.Laws

set_option maxRecDepth 16384

noncomputable section

namespace Cert.RefSide

open Idealize.ShloMosaic Idealize.ShloMosaic.ValueIdx
open Cert.ReferenceIdeal Cert.ReferenceIdeal.Read
open Cert.Product Cert.DenseLayer Cert.PlainDot Cert.ChainedProduct Cert.SplitHead

/-! ## The normaliser, computed twice from the same inputs -/

theorem sources_again (x0 : (⟨S2x800000, .i32⟩ : BufTy).Contents (Elt Ideal)) : val_main_v59 (F := Ideal) x0 = val_main_v9 x0 := rfl
theorem targets_again (x0 : (⟨S2x800000, .i32⟩ : BufTy).Contents (Elt Ideal)) : val_main_v60 (F := Ideal) x0 = val_main_v10 x0 := rfl
theorem weights_again (x2 : (⟨S800000, .f32⟩ : BufTy).Contents (Elt Ideal)) : val_main_v62 (F := Ideal) x2 = val_main_v12 x2 := rfl
theorem degree_again (x0 : (⟨S2x800000, .i32⟩ : BufTy).Contents (Elt Ideal)) (x2 : (⟨S800000, .f32⟩ : BufTy).Contents (Elt Ideal)) : val_main_v65 (F := Ideal) x0 x2 = val_main_v15 x0 x2 := rfl
theorem inverse_root_again (x0 : (⟨S2x800000, .i32⟩ : BufTy).Contents (Elt Ideal)) (x2 : (⟨S800000, .f32⟩ : BufTy).Contents (Elt Ideal)) : val_main_v73 (F := Ideal) x0 x2 = val_main_v23 x0 x2 := rfl
theorem normaliser_again (x0 : (⟨S2x800000, .i32⟩ : BufTy).Contents (Elt Ideal)) (x2 : (⟨S800000, .f32⟩ : BufTy).Contents (Elt Ideal)) : val_main_v89 (F := Ideal) x0 x2 = val_main_v39 x0 x2 := rfl

/-! ## The dense stages as whole-array functions -/

theorem plain_lin1 : IsPlain dot_S50000x512_S512x128_S50000x128_1_0_0_1_n_n := ⟨rfl, rfl, rfl, rfl, rfl, rfl⟩
theorem plain_conv1 : IsPlain dot_S50000x128_S128x256_S50000x256_1_0_0_1_n_n := ⟨rfl, rfl, rfl, rfl, rfl, rfl⟩
theorem plain_mu : IsPlain dot_S50000x256_S256x128_S50000x128_1_0_0_1_n_n := ⟨rfl, rfl, rfl, rfl, rfl, rfl⟩
theorem plain_out : IsPlain dot_S800000x256_S256x1_S800000x1_1_0_0_1_n_n := ⟨rfl, rfl, rfl, rfl, rfl, rfl⟩

/-- (x · W_lin1 + b_lin1) · W_conv1. -/
theorem first_products (x1 : (⟨S50000x512, .f32⟩ : BufTy).Contents (Elt Ideal)) (x3 : (⟨S512x128, .f32⟩ : BufTy).Contents (Elt Ideal)) (x4 : (⟨S128, .f32⟩ : BufTy).Contents (Elt Ideal)) (x5 : (⟨S128x256, .f32⟩ : BufTy).Contents (Elt Ideal)) :
    val_main_v40 (F := Ideal) x1 x3 x4 x5 = chain (M := 50000) (K := 512) (H := 128) (N := 256) x1 x3 (row x4) x5 := by
  unfold val_main_v40 val_main_v7 val_main_v6 val_main_v5 val_main_v4
  exact chain_host plain_lin1 plain_conv1 (by decide) none none x1 x3 x4 x5 _ _

/-- relu(first convolution) · W_mu. -/
theorem second_product (x0 : (⟨S2x800000, .i32⟩ : BufTy).Contents (Elt Ideal)) (x1 : (⟨S50000x512, .f32⟩ : BufTy).Contents (Elt Ideal)) (x2 : (⟨S800000, .f32⟩ : BufTy).Contents (Elt Ideal)) (x3 : (⟨S512x128, .f32⟩ : BufTy).Contents (Elt Ideal)) (x4 : (⟨S128, .f32⟩ : BufTy).Contents (Elt Ideal)) (x5 : (⟨S128x256, .f32⟩ : BufTy).Contents (Elt Ideal)) (x6 : (⟨S256, .f32⟩ : BufTy).Contents (Elt Ideal)) (x7 : (⟨S256x128, .f32⟩ : BufTy).Contents (Elt Ideal)) :
    val_main_v90 (F := Ideal) x0 x1 x2 x3 x4 x5 x6 x7
      = mm (M := 50000) (K := 256) (N := 128) (val_main_v57 (F := Ideal) x0 x1 x2 x3 x4 x5 x6) x7 := by
  unfold val_main_v90
  exact dotGeneral_eq plain_mu none _ x7

/-- The edge read-out. -/
theorem read_out (x0 : (⟨S2x800000, .i32⟩ : BufTy).Contents (Elt Ideal)) (x1 : (⟨S50000x512, .f32⟩ : BufTy).Contents (Elt Ideal)) (x2 : (⟨S800000, .f32⟩ : BufTy).Contents (Elt Ideal)) (x3 : (⟨S512x128, .f32⟩ : BufTy).Contents (Elt Ideal)) (x4 : (⟨S128, .f32⟩ : BufTy).Contents (Elt Ideal)) (x5 : (⟨S128x256, .f32⟩ : BufTy).Contents (Elt Ideal)) (x6 : (⟨S256, .f32⟩ : BufTy).Contents (Elt Ideal)) (x7 : (⟨S256x128, .f32⟩ : BufTy).Contents (Elt Ideal)) (x8 : (⟨S128, .f32⟩ : BufTy).Contents (Elt Ideal)) (x9 : (⟨S256x1, .f32⟩ : BufTy).Contents (Elt Ideal)) (x10 : (⟨S1, .f32⟩ : BufTy).Contents (Elt Ideal))
    (s0 : (⟨2, ![256, 1]⟩ : Shape).Slices ![0, 0] ⟨2, ![128, 1]⟩) (s1 : (⟨2, ![256, 1]⟩ : Shape).Slices ![128, 0] ⟨2, ![128, 1]⟩) :
    val_main_v131 (F := Ideal) x0 x1 x2 x3 x4 x5 x6 x7 x8 x9 x10
      = head (E := 800000) (H := 128) (val_main_v113 (F := Ideal) x0 x1 x2 x3 x4 x5 x6 x7 x8) (val_main_v120 (F := Ideal) x0 x1 x2 x3 x4 x5 x6 x7 x8)
          (extractStridedSlice ⟨2, ![128, 1]⟩ ![0, 0] x9 s0)
          (extractStridedSlice ⟨2, ![128, 1]⟩ ![128, 0] x9 s1) (row x10) := by
  unfold val_main_v131 val_main_v130 val_main_v129 val_main_v128 val_main_v127 val_main_v126 val_main_v125 val_main_v124
    val_main_v123 val_main_v122 val_main_v121 val_main_cst_31 val_main_cst_30
  exact head_host (E := 800000) (H := 128) plain_out none _ _ x9 x10 _ s0 s1 _ _ _ _

end Cert.RefSide

end
-- ==== Proof.KernelResult.lean ====
/-
  What the idealized kernel's result buffer holds at the end, as a function of the argument arrays.

  The buffer contents at the boundaries between @main's segments are followed from the launch to the return:
  before the first call the index and normaliser arrays are the reference's stages of the edge list and the edge
  weights; the first call leaves (x · W_lin1 + b_lin1) · W_conv1, which is the reference's product stage; the first
  aggregation, bias and rectifier give the reference's hidden layer; the second call leaves its product with W_mu;
  the second aggregation and the two gathers give the embedding at every edge's end points; the third call leaves
  the split read-out of those against the two halves of the read-out column, which is the reference's read-out of
  the joined rows against the whole column; and the closing reshape drops the unit axis on both sides. So the
  result buffer holds the reference's last stage applied to the argument arrays.
-/
import proofs.«115442_j20289425506515_1_alg».proof.Proof.ValueRun
import proofs.«115442_j20289425506515_1_alg».proof.Proof.FusedRows
import proofs.«115442_j20289425506515_1_alg».proof.Proof.RowsProduct
import proofs.«115442_j20289425506515_1_alg».proof.Proof.EdgeRows
import proofs.«115442_j20289425506515_1_alg».proof.Proof.HostGroups
import proofs.«115442_j20289425506515_1_alg».proof.Proof.RefSide

set_option maxRecDepth 16384

noncomputable section

namespace Cert.KernelIdeal.Result

open Cert.KernelIdeal Cert.KernelIdeal.Gen Idealize.ShloMosaic Idealize.ShloMosaic.TcCoe Idealize.ShloMosaic.StableHlo Idealize.SL.Sem
open Cert.ReferenceIdeal.Read Cert.KernelIdeal.HostGroups
open Cert.DenseLayer

variable (m : (ℓ : Loc nD τ sig) → Buf (Elt Ideal) ℓ) (ρ : Dev nD → PrngReg) (c : Dev nD)

/-! ## At the first call's entry -/

theorem entry0_src : W5 m ρ c (Proc.devRef .tc main_v1) = val_main_v1 (F := Ideal) (m ((c : Thread nD τ).loc main_arg0)) := opened_src (W0 m ρ c)
theorem entry0_dst : W5 m ρ c (Proc.devRef .tc main_v3) = val_main_v3 (F := Ideal) (m ((c : Thread nD τ).loc main_arg0)) := opened_dst (W0 m ρ c)
theorem entry0_sources : W5 m ρ c (Proc.devRef .tc main_v5) = val_main_v9 (F := Ideal) (m ((c : Thread nD τ).loc main_arg0)) := opened_sources (W0 m ρ c)
theorem entry0_targets : W5 m ρ c (Proc.devRef .tc main_v6) = val_main_v10 (F := Ideal) (m ((c : Thread nD τ).loc main_arg0)) := opened_targets (W0 m ρ c)
theorem entry0_normaliser : W5 m ρ c (Proc.devRef .tc main_v35) = val_main_v39 (F := Ideal) (m ((c : Thread nD τ).loc main_arg0)) (m ((c : Thread nD τ).loc main_arg2)) :=
  opened_normaliser (W0 m ρ c)
theorem entry0_bias : W5 m ρ c (Proc.devRef .tc main_v36) = shapeCast S1x128 (m ((c : Thread nD τ).loc main_arg4)) shapeCasts_S128_S1x128 := opened_bias (W0 m ρ c)
theorem entry0_arg1 : W5 m ρ c (Proc.devRef .tc main_arg1) = (m ((c : Thread nD τ).loc main_arg1)) := opened_keeps_arg1 (W0 m ρ c)
theorem entry0_arg3 : W5 m ρ c (Proc.devRef .tc main_arg3) = (m ((c : Thread nD τ).loc main_arg3)) := opened_keeps_arg3 (W0 m ρ c)
theorem entry0_arg5 : W5 m ρ c (Proc.devRef .tc main_arg5) = (m ((c : Thread nD τ).loc main_arg5)) := opened_keeps_arg5 (W0 m ρ c)
theorem entry0_arg6 : W5 m ρ c (Proc.devRef .tc main_arg6) = (m ((c : Thread nD τ).loc main_arg6)) := opened_keeps_arg6 (W0 m ρ c)
theorem entry0_arg7 : W5 m ρ c (Proc.devRef .tc main_arg7) = (m ((c : Thread nD τ).loc main_arg7)) := opened_keeps_arg7 (W0 m ρ c)
theorem entry0_arg8 : W5 m ρ c (Proc.devRef .tc main_arg8) = (m ((c : Thread nD τ).loc main_arg8)) := opened_keeps_arg8 (W0 m ρ c)
theorem entry0_arg9 : W5 m ρ c (Proc.devRef .tc main_arg9) = (m ((c : Thread nD τ).loc main_arg9)) := opened_keeps_arg9 (W0 m ρ c)
theorem entry0_arg10 : W5 m ρ c (Proc.devRef .tc main_arg10) = (m ((c : Thread nD τ).loc main_arg10)) := opened_keeps_arg10 (W0 m ρ c)

/-! ## The first call's output -/

theorem exit0_product : W6 m ρ c (Proc.devRef .tc main_v37) = val_main_v40 (F := Ideal) (m ((c : Thread nD τ).loc main_arg1)) (m ((c : Thread nD τ).loc main_arg3)) (m ((c : Thread nD τ).loc main_arg4)) (m ((c : Thread nD τ).loc main_arg5)) := by
  rw [show W6 m ρ c (Proc.devRef .tc main_v37) = (dat0 (V5 m ρ) c).arrAt 4 cfg0.N from W6_arr m ρ c 4,
    Cert.KernelIdeal.FusedRows.array_eq (V5 m ρ) c, Cert.RefSide.first_products,
    show V5 m ρ c main_arg1 = (m ((c : Thread nD τ).loc main_arg1)) from entry0_arg1 m ρ c, show V5 m ρ c main_arg3 = (m ((c : Thread nD τ).loc main_arg3)) from entry0_arg3 m ρ c,
    show V5 m ρ c main_arg5 = (m ((c : Thread nD τ).loc main_arg5)) from entry0_arg5 m ρ c,
    show V5 m ρ c main_v36 = shapeCast S1x128 (m ((c : Thread nD τ).loc main_arg4)) shapeCasts_S128_S1x128 from entry0_bias m ρ c, reshape_row]

/-! ## At the second call's entry -/

theorem entry1_hidden : W8 m ρ c (Proc.devRef .tc main_v54) = val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  convolved_hidden (W6 m ρ c) _ _ _ _ _ _ _ (exit0_product m ρ c)
    ((W6_of_ne m ρ c main_v5 (by decide)).trans (entry0_sources m ρ c))
    ((W6_of_ne m ρ c main_v6 (by decide)).trans (entry0_targets m ρ c))
    ((W6_of_ne m ρ c main_v35 (by decide)).trans (entry0_normaliser m ρ c))
    ((W6_of_ne m ρ c main_arg6 (by decide)).trans (entry0_arg6 m ρ c))
theorem entry1_src : W8 m ρ c (Proc.devRef .tc main_v1) = val_main_v1 (F := Ideal) (m ((c : Thread nD τ).loc main_arg0)) := ((convolved_keeps_v1 (W6 m ρ c)).trans (W6_of_ne m ρ c main_v1 (by decide))).trans (entry0_src m ρ c)
theorem entry1_dst : W8 m ρ c (Proc.devRef .tc main_v3) = val_main_v3 (F := Ideal) (m ((c : Thread nD τ).loc main_arg0)) := ((convolved_keeps_v3 (W6 m ρ c)).trans (W6_of_ne m ρ c main_v3 (by decide))).trans (entry0_dst m ρ c)
theorem entry1_sources : W8 m ρ c (Proc.devRef .tc main_v5) = val_main_v9 (F := Ideal) (m ((c : Thread nD τ).loc main_arg0)) := ((convolved_keeps_v5 (W6 m ρ c)).trans (W6_of_ne m ρ c main_v5 (by decide))).trans (entry0_sources m ρ c)
theorem entry1_targets : W8 m ρ c (Proc.devRef .tc main_v6) = val_main_v10 (F := Ideal) (m ((c : Thread nD τ).loc main_arg0)) := ((convolved_keeps_v6 (W6 m ρ c)).trans (W6_of_ne m ρ c main_v6 (by decide))).trans (entry0_targets m ρ c)
theorem entry1_normaliser : W8 m ρ c (Proc.devRef .tc main_v35) = val_main_v39 (F := Ideal) (m ((c : Thread nD τ).loc main_arg0)) (m ((c : Thread nD τ).loc main_arg2)) :=
  ((convolved_keeps_v35 (W6 m ρ c)).trans (W6_of_ne m ρ c main_v35 (by decide))).trans (entry0_normaliser m ρ c)
theorem entry1_arg7 : W8 m ρ c (Proc.devRef .tc main_arg7) = (m ((c : Thread nD τ).loc main_arg7)) := ((convolved_keeps_arg7 (W6 m ρ c)).trans (W6_of_ne m ρ c main_arg7 (by decide))).trans (entry0_arg7 m ρ c)
theorem entry1_arg8 : W8 m ρ c (Proc.devRef .tc main_arg8) = (m ((c : Thread nD τ).loc main_arg8)) := ((convolved_keeps_arg8 (W6 m ρ c)).trans (W6_of_ne m ρ c main_arg8 (by decide))).trans (entry0_arg8 m ρ c)
theorem entry1_arg9 : W8 m ρ c (Proc.devRef .tc main_arg9) = (m ((c : Thread nD τ).loc main_arg9)) := ((convolved_keeps_arg9 (W6 m ρ c)).trans (W6_of_ne m ρ c main_arg9 (by decide))).trans (entry0_arg9 m ρ c)
theorem entry1_arg10 : W8 m ρ c (Proc.devRef .tc main_arg10) = (m ((c : Thread nD τ).loc main_arg10)) := ((convolved_keeps_arg10 (W6 m ρ c)).trans (W6_of_ne m ρ c main_arg10 (by decide))).trans (entry0_arg10 m ρ c)

/-! ## The second call's output -/

theorem exit1_product : W9 m ρ c (Proc.devRef .tc main_v55) = val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [show W9 m ρ c (Proc.devRef .tc main_v55) = (dat1 (V8 m ρ) c).arrAt 2 cfg1.N from W9_arr m ρ c 2,
    Cert.KernelIdeal.RowsProduct.array_eq (V8 m ρ) c, Cert.RefSide.second_product,
    show V8 m ρ c main_v54 = val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) from entry1_hidden m ρ c,
    show V8 m ρ c main_arg7 = (m ((c : Thread nD τ).loc main_arg7)) from entry1_arg7 m ρ c]

/-! ## At the third call's entry -/

theorem entry2_at_sources : W10 m ρ c (Proc.devRef .tc main_v78) = val_main_v113 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  gathered_at_sources (W9 m ρ c) _ _ _ _ _ _ _ _ _ (exit1_product m ρ c)
    (((W9_of_ne m ρ c main_v5 (by decide)).trans (entry1_sources m ρ c)).trans (Cert.RefSide.sources_again _).symm)
    (((W9_of_ne m ρ c main_v6 (by decide)).trans (entry1_targets m ρ c)).trans (Cert.RefSide.targets_again _).symm)
    (((W9_of_ne m ρ c main_v35 (by decide)).trans (entry1_normaliser m ρ c)).trans (Cert.RefSide.normaliser_again _ _).symm)
    ((W9_of_ne m ρ c main_v1 (by decide)).trans (entry1_src m ρ c))
    ((W9_of_ne m ρ c main_arg8 (by decide)).trans (entry1_arg8 m ρ c))
theorem entry2_at_targets : W10 m ρ c (Proc.devRef .tc main_v85) = val_main_v120 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  gathered_at_targets (W9 m ρ c) _ _ _ _ _ _ _ _ _ (exit1_product m ρ c)
    (((W9_of_ne m ρ c main_v5 (by decide)).trans (entry1_sources m ρ c)).trans (Cert.RefSide.sources_again _).symm)
    (((W9_of_ne m ρ c main_v6 (by decide)).trans (entry1_targets m ρ c)).trans (Cert.RefSide.targets_again _).symm)
    (((W9_of_ne m ρ c main_v35 (by decide)).trans (entry1_normaliser m ρ c)).trans (Cert.RefSide.normaliser_again _ _).symm)
    ((W9_of_ne m ρ c main_v3 (by decide)).trans (entry1_dst m ρ c))
    ((W9_of_ne m ρ c main_arg8 (by decide)).trans (entry1_arg8 m ρ c))
theorem entry2_first_half :
    W10 m ρ c (Proc.devRef .tc main_v86) = extractStridedSlice S128x1 ![0, 0] (m ((c : Thread nD τ).loc main_arg9)) slices_S256x1_S128x1_0_0 :=
  (gathered_first_half (W9 m ρ c)).trans
    (congrArg (extractStridedSlice S128x1 ![0, 0] · slices_S256x1_S128x1_0_0) ((W9_of_ne m ρ c main_arg9 (by decide)).trans (entry1_arg9 m ρ c)))
theorem entry2_second_half :
    W10 m ρ c (Proc.devRef .tc main_v87) = extractStridedSlice S128x1 ![128, 0] (m ((c : Thread nD τ).loc main_arg9)) slices_S256x1_S128x1_128_0 :=
  (gathered_second_half (W9 m ρ c)).trans
    (congrArg (extractStridedSlice S128x1 ![128, 0] · slices_S256x1_S128x1_128_0) ((W9_of_ne m ρ c main_arg9 (by decide)).trans (entry1_arg9 m ρ c)))
theorem entry2_bias : W10 m ρ c (Proc.devRef .tc main_v88) = shapeCast S1x1 (m ((c : Thread nD τ).loc main_arg10)) shapeCasts_S1_S1x1 :=
  (gathered_bias (W9 m ρ c)).trans
    (congrArg (shapeCast S1x1 · shapeCasts_S1_S1x1) ((W9_of_ne m ρ c main_arg10 (by decide)).trans (entry1_arg10 m ρ c)))

/-! ## The third call's output, and the result -/

theorem exit2_read_out : W11 m ρ c (Proc.devRef .tc main_v89) = val_main_v131 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [show W11 m ρ c (Proc.devRef .tc main_v89) = (dat2 (V10 m ρ) c).arrAt 5 cfg2.N from W11_arr m ρ c 5,
    Cert.KernelIdeal.EdgeRows.array_eq (V10 m ρ) c,
    Cert.RefSide.read_out _ _ _ _ _ _ _ _ _ _ _ slices_S256x1_S128x1_0_0 slices_S256x1_S128x1_128_0,
    show V10 m ρ c main_v78 = val_main_v113 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) from entry2_at_sources m ρ c,
    show V10 m ρ c main_v85 = val_main_v120 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) from entry2_at_targets m ρ c,
    show V10 m ρ c main_v86 = extractStridedSlice S128x1 ![0, 0] (m ((c : Thread nD τ).loc main_arg9)) slices_S256x1_S128x1_0_0 from entry2_first_half m ρ c,
    show V10 m ρ c main_v87 = extractStridedSlice S128x1 ![128, 0] (m ((c : Thread nD τ).loc main_arg9)) slices_S256x1_S128x1_128_0 from entry2_second_half m ρ c,
    show V10 m ρ c main_v88 = shapeCast S1x1 (m ((c : Thread nD τ).loc main_arg10)) shapeCasts_S1_S1x1 from entry2_bias m ρ c, reshape_row]

/-- The result buffer at the return: the reference's last stage of the argument arrays. -/
theorem result_eq : W12 m ρ c (Proc.devRef .tc main_v90) = val_main_v132 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [show W12 m ρ c (Proc.devRef .tc main_v90) = shapeCast S800000 (W11 m ρ c (Proc.devRef .tc main_v89)) shapeCasts_S800000x1_S800000
    from closed_result (W11 m ρ c), exit2_read_out m ρ c]
  rfl

/-- The idealized kernel's run with its result at that stage of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v90) = val_main_v132 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (result_eq m ρ c), (h c).2⟩) (Cert.KernelIdeal.ValueRun.run (F := Ideal) m ρ)

end Cert.KernelIdeal.Result

end
-- ==== Proof.lean ====
/- The proof of `Cert.Claim` (proofs.«115442_j20289425506515_1_alg».proof.Defs): a two-layer graph convolution encoder with an
   edge read-out, as three pipelined calls among host operations, against its plain reference, on the extended reals.

   Both programs compute, for every edge (s, t), σ(z[s] · w_s + z[t] · w_t + b) where z = Â · relu(Â · ((x · W_lin1 +
   b_lin1) · W_conv1) + b_conv1) · W_mu + b_mu after reassociation, Â the symmetrically normalised weighted adjacency
   with self loops, and (w_s ; w_t) the two halves of the 256×1 read-out column. The host operations that build Â's
   entries and apply it (gather, scale, scatter-add) are the same operations on both sides and are never opened.
   The two sides differ in three places only: the kernel fuses the first two products into one call computed 1000
   rows at a time (an entry of row p depends on row p of x only); it computes the normaliser once where the reference
   computes it twice from the same inputs; and it multiplies the source rows and the target rows against the two
   halves of the column separately where the reference joins the rows and multiplies once — a finite sum is the sum
   of its first and its last half in any additive commutative monoid, so no finiteness is used. σ as one operation
   and σ spelt out are one function. Changes of float format are the identity.

   The frames of both kernel programs are the generated frame certificates; the reference's frame is its generated
   run with the result dropped; the idealization rewrote nothing, so `preserves` is `True`. -/
import proofs.«115442_j20289425506515_1_alg».proof.Defs
import proofs.«115442_j20289425506515_1_alg».proof.Proof.Gen.Kernel
import proofs.«115442_j20289425506515_1_alg».proof.Proof.Gen.Kernel.Frame
import proofs.«115442_j20289425506515_1_alg».proof.Proof.Gen.KernelIdeal
import proofs.«115442_j20289425506515_1_alg».proof.Proof.Gen.KernelIdeal.Frame
import proofs.«115442_j20289425506515_1_alg».proof.Proof.Gen.ReferenceIdeal
import proofs.«115442_j20289425506515_1_alg».proof.Proof.Gen.ReferenceIdeal.Run
import proofs.«115442_j20289425506515_1_alg».proof.Proof.Gen.ReferenceIdeal.Read
import proofs.«115442_j20289425506515_1_alg».proof.Proof.Gen.Pre_finite_inputs
import proofs.«115442_j20289425506515_1_alg».proof.Proof.KernelResult
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the result at the reference's last stage of the
    argument arrays: the kernel by following its segments (Proof/KernelResult.lean), the reference by its own run. -/
theorem algebraic : Cert.algebraic_KernelIdeal_ReferenceIdeal := by
  intro m ρ m' ρ' _ hagree
  refine ⟨fun c => Cert.ReferenceIdeal.Read.val_main_v132 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6, g7, g8, g9, g10⟩ := hagree c
  rw [Cert.ReferenceIdeal.Read.val_main_v132_eq, g0, g1, g2, g3, g4, g5, g6, g7, g8, g9, g10]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
